-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x256 : Shape := ⟨2, ![512, 256]⟩
abbrev S1x256 : Shape := ⟨2, ![1, 256]⟩
abbrev S256x128 : Shape := ⟨2, ![256, 128]⟩
abbrev S1x128 : Shape := ⟨2, ![1, 128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S256x128 .f32) (main_arg5 : FVec F S1x128 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  main_v28

def fn {F : FTy → Type} [FloatOps F] (main_arg0 : FVec F S8192x8192 .f32) (main_arg1 : FVec F S8192x512 .f32) (main_arg2 : FVec F S512x256 .f32) (main_arg3 : FVec F S1x256 .f32) (main_arg4 : FVec F S256x128 .f32) (main_arg5 : FVec F S1x128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_v13 main_v16
-- ==== Kernel.lean ====
abbrev S8192x8192 : Shape := ⟨2, ![8192, 8192]⟩
abbrev S8192x512 : Shape := ⟨2, ![8192, 512]⟩
abbrev S512x256 : Shape := ⟨2, ![512, 256]⟩
abbrev S1x256 : Shape := ⟨2, ![1, 256]⟩
abbrev S256x128 : Shape := ⟨2, ![256, 128]⟩
abbrev S1x128 : Shape := ⟨2, ![1, 128]⟩
abbrev S8192x256 : Shape := ⟨2, ![8192, 256]⟩
abbrev S8192x128 : Shape := ⟨2, ![8192, 128]⟩
abbrev S1024x512 : Shape := ⟨2, ![1024, 512]⟩
abbrev S1024x256 : Shape := ⟨2, ![1024, 256]⟩
abbrev S256x8192 : Shape := ⟨2, ![256, 8192]⟩
abbrev S256x256 : Shape := ⟨2, ![256, 256]⟩

abbrev nBuf : Space → Nat
  | .hbm => 11
  | .vmem => 18
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x256, .f32⟩
  | .hbm, ⟨3, _⟩ => ⟨S1x256, .f32⟩
  | .hbm, ⟨4, _⟩ => ⟨S256x128, .f32⟩
  | .hbm, ⟨5, _⟩ => ⟨S1x128, .f32⟩
  | .hbm, ⟨6, _⟩ => ⟨S512x256, .bf16⟩
  | .hbm, ⟨7, _⟩ => ⟨S256x128, .bf16⟩
  | .hbm, ⟨8, _⟩ => ⟨S8192x256, .bf16⟩
  | .hbm, ⟨9, _⟩ => ⟨S8192x128, .bf16⟩
  | .hbm, ⟨10, _⟩ => ⟨S8192x128, .f32⟩
  | .local _ .vmem, ⟨0, _⟩ => ⟨S1024x512, .f32⟩
  | .local _ .vmem, ⟨1, _⟩ => ⟨S1024x512, .f32⟩
  | .local _ .vmem, ⟨2, _⟩ => ⟨S512x256, .bf16⟩
  | .local _ .vmem, ⟨3, _⟩ => ⟨S1024x256, .bf16⟩
  | .local _ .vmem, ⟨4, _⟩ => ⟨S1024x256, .bf16⟩
  | .local _ .vmem, ⟨5, _⟩ => ⟨S256x8192, .f32⟩
  | .local _ .vmem, ⟨6, _⟩ => ⟨S256x8192, .f32⟩
  | .local _ .vmem, ⟨7, _⟩ => ⟨S8192x256, .bf16⟩
  | .local _ .vmem, ⟨8, _⟩ => ⟨S1x256, .f32⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x8192, .f32⟩
  | .local _ .vmem, ⟨13, _⟩ => ⟨S256x8192, .f32⟩
  | .local _ .vmem, ⟨14, _⟩ => ⟨S8192x128, .bf16⟩
  | .local _ .vmem, ⟨15, _⟩ => ⟨S1x128, .f32⟩
  | .local _ .vmem, ⟨16, _⟩ => ⟨S256x128, .f32⟩
  | .local _ .vmem, ⟨17, _⟩ => ⟨S256x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S256x8192_S256x8192_0_0 : ∀ a, (![0, 0] : Fin 2 → Nat) a + S256x8192.size a ≤ S256x8192.size a
  h_S256x8192 : 0 < S256x8192.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1x256_S1x256_0_0 : ∀ a, (![0, 0] : Fin 2 → Nat) a + S1x256.size a ≤ S1x256.size a
  h_S1x256 : 0 < S1x256.numel
  broadcasts_S1x256_S256x256 : S1x256.Broadcasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S256x128_S256x128_0_0 : (Rect.unit (s := S256x128) ![0, 0] S256x128.size inb_S256x128_S256x128_0_0).PackedRows (EltTy.packing .bf16)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  broadcasts_S1x128_S256x128 : S1x128.Broadcasts S256x128
  dot_S1024x512_S512x256_S1024x256_1_0_0_1_n_n_wf : DotDims.WF S1024x512 S512x256 S1024x256 [1] [0] [0] [1] [] []
  dot_S256x8192_S8192x256_S256x256_1_0_0_1_n_n_wf : DotDims.WF S256x8192 S8192x256 S256x256 [1] [0] [0] [1] [] []
  dot_S256x256_S256x128_S256x128_1_0_0_1_n_n_wf : DotDims.WF S256x256 S256x128 S256x128 [1] [0] [0] [1] [] []
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S8192x128.size a
  hwx1_4 : ∀ i : grid1.Coords, EltTy.bits .bf16 = 32 ∨ (Rect.block (s := S8192x128) S256x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .bf16 = 32 ∨ (Rect.block (s := S8192x128) S8192x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S8192x128.size a
  hwx2_3 : ∀ i : grid2.Coords, EltTy.bits .f32 = 32 ∨ (Rect.block (s := S8192x128) S256x128.size (cc2_transform_3 i) (hinb2_3 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S256x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x8192 : Shape := ⟨2, ![8192, 8192]⟩
abbrev S8192x512 : Shape := ⟨2, ![8192, 512]⟩
abbrev S512x256 : Shape := ⟨2, ![512, 256]⟩
abbrev S1x256 : Shape := ⟨2, ![1, 256]⟩
abbrev S256x128 : Shape := ⟨2, ![256, 128]⟩
abbrev S1x128 : Shape := ⟨2, ![1, 128]⟩
abbrev S_ : Shape := ⟨0, ![]⟩
abbrev S8192x128 : Shape := ⟨2, ![8192, 128]⟩
abbrev S256x8192 : Shape := ⟨2, ![256, 8192]⟩
abbrev S256x512 : Shape := ⟨2, ![256, 512]⟩
abbrev S256x256 : Shape := ⟨2, ![256, 256]⟩

abbrev nBuf : Space → Nat
  | .hbm => 30
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x256, .f32⟩
  | .hbm, ⟨3, _⟩ => ⟨S1x256, .f32⟩
  | .hbm, ⟨4, _⟩ => ⟨S256x128, .f32⟩
  | .hbm, ⟨5, _⟩ => ⟨S1x128, .f32⟩
  | .hbm, ⟨6, _⟩ => ⟨S8192x8192, .bf16⟩
  | .hbm, ⟨7, _⟩ => ⟨S_, .i32⟩
  | .hbm, ⟨8, _⟩ => ⟨S_, .bf16⟩
  | .hbm, ⟨9, _⟩ => ⟨S8192x8192, .bf16⟩
  | .hbm, ⟨10, _⟩ => ⟨S8192x512, .bf16⟩
  | .hbm, ⟨11, _⟩ => ⟨S_, .i32⟩
  | .hbm, ⟨12, _⟩ => ⟨S_, .bf16⟩
  | .hbm, ⟨13, _⟩ => ⟨S8192x512, .bf16⟩
  | .hbm, ⟨14, _⟩ => ⟨S512x256, .bf16⟩
  | .hbm, ⟨15, _⟩ => ⟨S_, .i32⟩
  | .hbm, ⟨16, _⟩ => ⟨S_, .bf16⟩
  | .hbm, ⟨17, _⟩ => ⟨S512x256, .bf16⟩
  | .hbm, ⟨18, _⟩ => ⟨S_, .i32⟩
  | .hbm, ⟨19, _⟩ => ⟨S_, .f32⟩
  | .hbm, ⟨20, _⟩ => ⟨S1x256, .f32⟩
  | .hbm, ⟨21, _⟩ => ⟨S256x128, .bf16⟩
  | .hbm, ⟨22, _⟩ => ⟨S_, .i32⟩
  | .hbm, ⟨23, _⟩ => ⟨S_, .bf16⟩
  | .hbm, ⟨24, _⟩ => ⟨S256x128, .bf16⟩
  | .hbm, ⟨25, _⟩ => ⟨S_, .i32⟩
  | .hbm, ⟨26, _⟩ => ⟨S_, .f32⟩
  | .hbm, ⟨27, _⟩ => ⟨S1x128, .f32⟩
  | .hbm, ⟨28, _⟩ => ⟨S8192x128, .bf16⟩
  | .hbm, ⟨29, _⟩ => ⟨S8192x128, .f32⟩
  | .local _ .vmem, ⟨0, _⟩ => ⟨S256x8192, .bf16⟩
  | .local _ .vmem, ⟨1, _⟩ => ⟨S256x8192, .bf16⟩
  | .local _ .vmem, ⟨2, _⟩ => ⟨S8192x512, .bf16⟩
  | .local _ .vmem, ⟨3, _⟩ => ⟨S512x256, .bf16⟩
  | .local _ .vmem, ⟨4, _⟩ => ⟨S1x256, .f32⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x8192, .bf16⟩
  | .local _ .vmem, ⟨9, _⟩ => ⟨S256x8192, .bf16⟩
  | .local _ .vmem, ⟨10, _⟩ => ⟨S8192x128, .bf16⟩
  | .local _ .vmem, ⟨11, _⟩ => ⟨S1x128, .f32⟩
  | .local _ .vmem, ⟨12, _⟩ => ⟨S256x128, .f32⟩
  | .local _ .vmem, ⟨13, _⟩ => ⟨S256x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_c : Ref sig .tc := ⟨.hbm, 7, rfl⟩
abbrev main_call0_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_c_0 : Ref sig .tc := ⟨.hbm, 11, rfl⟩
abbrev main_call0_call1_v0 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_call2_v0 : Ref sig .tc := ⟨.hbm, 16, rfl⟩
abbrev main_call0_v5 : Ref sig .tc := ⟨.hbm, 17, rfl⟩
abbrev main_call0_c_2 : Ref sig .tc := ⟨.hbm, 18, rfl⟩
abbrev main_call0_call3_v0 : Ref sig .tc := ⟨.hbm, 19, rfl⟩
abbrev main_call0_v6 : Ref sig .tc := ⟨.hbm, 20, rfl⟩
abbrev main_call0_v7 : Ref sig .tc := ⟨.hbm, 21, rfl⟩
abbrev main_call0_c_3 : Ref sig .tc := ⟨.hbm, 22, rfl⟩
abbrev main_call0_call4_v0 : Ref sig .tc := ⟨.hbm, 23, rfl⟩
abbrev main_call0_v8 : Ref sig .tc := ⟨.hbm, 24, rfl⟩
abbrev main_call0_c_4 : Ref sig .tc := ⟨.hbm, 25, rfl⟩
abbrev main_call0_call5_v0 : Ref sig .tc := ⟨.hbm, 26, rfl⟩
abbrev main_call0_v9 : Ref sig .tc := ⟨.hbm, 27, rfl⟩
abbrev main_call0_v10 : Ref sig .tc := ⟨.hbm, 28, rfl⟩
abbrev main_v0 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  pads_S8192x8192_S8192x8192_000_000 : S8192x8192.Pads (![0, 0] : Fin 2 → Nat) ![0, 0] ![0, 0] S8192x8192
  h_S_ : 0 < S_.numel
  pads_S8192x512_S8192x512_000_000 : S8192x512.Pads (![0, 0] : Fin 2 → Nat) ![0, 0] ![0, 0] S8192x512
  pads_S512x256_S512x256_000_000 : S512x256.Pads (![0, 0] : Fin 2 → Nat) ![0, 0] ![0, 0] S512x256
  pads_S1x256_S1x256_000_000 : S1x256.Pads (![0, 0] : Fin 2 → Nat) ![0, 0] ![0, 0] S1x256
  pads_S256x128_S256x128_000_000 : S256x128.Pads (![0, 0] : Fin 2 → Nat) ![0, 0] ![0, 0] S256x128
  pads_S1x128_S1x128_000_000 : S1x128.Pads (![0, 0] : Fin 2 → Nat) ![0, 0] ![0, 0] S1x128
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S256x128_S256x128_0_0 : (Rect.unit (s := S256x128) ![0, 0] S256x128.size inb_S256x128_S256x128_0_0).PackedRows (EltTy.packing .bf16)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  dot_S256x8192_S8192x512_S256x512_1_0_0_1_n_n_wf : DotDims.WF S256x8192 S8192x512 S256x512 [1] [0] [0] [1] [] []
  dot_S256x512_S512x256_S256x256_1_0_0_1_n_n_wf : DotDims.WF S256x512 S512x256 S256x256 [1] [0] [0] [1] [] []
  dot_S256x256_S256x128_S256x128_1_0_0_1_n_n_wf : DotDims.WF S256x256 S256x128 S256x128 [1] [0] [0] [1] [] []
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .bf16 = 32 ∨ (Rect.block (s := S8192x8192) S256x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S8192x128.size a
  hwx0_5 : ∀ i : grid0.Coords, EltTy.bits .bf16 = 32 ∨ (Rect.block (s := S8192x128) S256x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .bf16 = 32 ∨ (Rect.block (s := S8192x8192) S256x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S8192x128.size a
  hwx1_3 : ∀ i : grid1.Coords, EltTy.bits .f32 = 32 ∨ (Rect.block (s := S8192x128) S256x128.size (cc1_transform_3 i) (hinb1_3 i)).WholeWords (EltTy.packing .f32)

variable [Facts₀]

def dot_S256x8192_S8192x512_S256x512_1_0_0_1_n_n : DotDims S256x8192 S8192x512 S256x512 where
  lhsContracting := [1]
  rhsContracting := [0]
  lhsNonContracting := [0]
  rhsNonContracting := [1]
  lhsBatch := []
  rhsBatch := []
  wf := dot_S256x8192_S8192x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_call0_v1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v10) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v10) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v9) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  The two-layer graph convolution as functions of its six argument arrays, entry by entry over the extended reals,
  in the two arrangements the two programs compute, and the law that joins them.

  With `A` the [8192, 8192] adjacency, `X` the [8192, 512] features, `W1` [512, 256], `b1` [1, 256], `W2` [256, 128]
  and `b2` [1, 128], and `relu x = max x 0`:

    kernel     out = relu (A · (relu (A · (X · W1) + b1) · W2) + b2)
    reference  out = relu (A · (relu ((A · X) · W1 + b1) · W2) + b2)

  The two differ only in how the triple product `A · X · W1` is bracketed. Matrix multiplication is associative
  over the reals, by distributing a factor over a finite sum and exchanging two finite sums; over the extended
  reals distributivity fails at the infinities, so the law is proved for matrices all of whose entries are real
  numbers — which is what the precondition (every input finite) gives for `A`, `X` and `W1`.
-/
import Idealize.ShloMosaic.PureOps.Ideal
import Idealize.ShloMosaic.Lib.ValueIdx

noncomputable section

open scoped BigOperators
open Idealize.ShloMosaic Idealize.ShloMosaic.ValueIdx

namespace GCN

/-- A matrix of extended reals, indexed as an array of shape `[M, N]`. -/
abbrev Mat (M N : ℕ) : Type := (⟨2, ![M, N]⟩ : Shape).Idx → EReal

/-- The matrix product, entry by entry: row `j 0` of `a` against column `j 1` of `b`. -/
def mm {M K N : ℕ} (a : Mat M K) (b : Mat K N) : Mat M N :=
  fun j => ∑ k : Fin K, a (ix2 (n0 := M) (j 0) k) * b (ix2 (n1 := N) k (j 1))

theorem mm_ix2 {M K N : ℕ} (a : Mat M K) (b : Mat K N) (p : Fin M) (q : Fin N) :
    mm a b (ix2 p q) = ∑ k : Fin K, a (ix2 p k) * b (ix2 k q) := rfl

/-- One layer: the product, plus the bias row added to every row, clipped below at zero. -/
def layer {M K N : ℕ} (a : Mat M K) (b : Mat K N) (bias : Mat 1 N) : Mat M N :=
  fun j => max (mm a b j + bias (ix2 (n0 := 1) (n1 := N) 0 (j 1))) 0

theorem layer_ix2 {M K N : ℕ} (a : Mat M K) (b : Mat K N) (bias : Mat 1 N) (p : Fin M) (q : Fin N) :
    layer a b bias (ix2 p q) = max ((∑ k : Fin K, a (ix2 p k) * b (ix2 k q)) + bias (ix2 0 q)) 0 := rfl

/-- The hidden activations times the second weights, as the kernel arranges them: `relu (A · (X · W1) + b1) · W2`. -/
def hiddenK (A : Mat 8192 8192) (X : Mat 8192 512) (W1 : Mat 512 256) (b1 : Mat 1 256) (W2 : Mat 256 128) : Mat 8192 128 :=
  mm (layer A (mm X W1) b1) W2

/-- The same as the reference arranges them: `relu ((A · X) · W1 + b1) · W2`. -/
def hiddenR (A : Mat 8192 8192) (X : Mat 8192 512) (W1 : Mat 512 256) (b1 : Mat 1 256) (W2 : Mat 256 128) : Mat 8192 128 :=
  mm (layer (mm A X) W1 b1) W2

/-- The kernel's result. -/
def outK (A : Mat 8192 8192) (X : Mat 8192 512) (W1 : Mat 512 256) (b1 : Mat 1 256) (W2 : Mat 256 128) (b2 : Mat 1 128) :
    Mat 8192 128 :=
  layer A (hiddenK A X W1 b1 W2) b2

/-- The reference's result. -/
def outR (A : Mat 8192 8192) (X : Mat 8192 512) (W1 : Mat 512 256) (b1 : Mat 1 256) (W2 : Mat 256 128) (b2 : Mat 1 128) :
    Mat 8192 128 :=
  layer A (hiddenR A X W1 b1 W2) b2

/-! ## Associativity of the product of matrices with real entries -/

/-- Every entry is a real number. -/
def Real {M N : ℕ} (a : Mat M N) : Prop := ∀ i, ∃ r : ℝ, a i = (r : EReal)

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `A · (X · W) = (A · X) · W` for matrices with real entries: each side, at an entry, is the double sum of the
    triple products `A (p, k) * X (k, f) * W (f, q)`, taken in the two orders. -/
theorem mm_assoc {M K L N : ℕ} (A : Mat M K) (X : Mat K L) (W : Mat L N) (hA : Real A) (hX : Real X) (hW : Real W) :
    mm A (mm X W) = mm (mm A X) W := by
  choose a ha using hA
  choose x hx using hX
  choose w hw using hW
  funext j
  obtain ⟨p, q, rfl⟩ : ∃ (p : Fin M) (q : Fin N), j = ix2 p q := ⟨j 0, j 1, eq_ix2 j⟩
  rw [mm_ix2, mm_ix2]
  have hl : ∀ k : Fin K, A (ix2 p k) * mm X W (ix2 k q) = ((a (ix2 p k) * ∑ f : Fin L, x (ix2 k f) * w (ix2 f q) : ℝ) : EReal) := by
    intro k
    rw [mm_ix2, ha, EReal.coe_mul, coe_sum]
    refine congrArg _ (Finset.sum_congr rfl fun f _ => ?_)
    rw [hx, hw, EReal.coe_mul]
  have hr : ∀ f : Fin L, mm A X (ix2 p f) * W (ix2 f q) = (((∑ k : Fin K, a (ix2 p k) * x (ix2 k f)) * w (ix2 f q) : ℝ) : EReal) := by
    intro f
    rw [mm_ix2, hw, EReal.coe_mul, coe_sum]
    refine congrArg (· * _) (Finset.sum_congr rfl fun k _ => ?_)
    rw [ha, hx, EReal.coe_mul]
  rw [Finset.sum_congr rfl fun k _ => hl k, Finset.sum_congr rfl fun f _ => hr f, ← coe_sum, ← coe_sum]
  refine congrArg _ ?_
  simp only [Finset.mul_sum, Finset.sum_mul]
  rw [Finset.sum_comm]
  exact Finset.sum_congr rfl fun f _ => Finset.sum_congr rfl fun k _ => (mul_assoc _ _ _).symm

/-- The two arrangements give the same result when the adjacency, the features and the first weights are real. -/
theorem outK_eq_outR (A : Mat 8192 8192) (X : Mat 8192 512) (W1 : Mat 512 256) (b1 : Mat 1 256) (W2 : Mat 256 128)
    (b2 : Mat 1 128) (hA : Real A) (hX : Real X) (hW : Real W1) :
    outK A X W1 b1 W2 b2 = outR A X W1 b1 W2 b2 := by
  have h : layer A (mm X W1) b1 = layer (mm A X) W1 b1 := by
    unfold layer
    rw [mm_assoc A X W1 hA hX hW]
  unfold outK outR hiddenK hiddenR
  rw [h]

end GCN

end
-- ==== Proof.Finite.lean ====
/-
  The precondition read entry by entry: if `|x| < +∞` holds at every entry of every input array (the conjunction
  of six reductions by `and` of the entrywise comparisons), then every entry of the adjacency, of the features and
  of the first weights is a real number — neither infinity.
-/
import proofs.«149407_g2000502456341497_pallasbulk_61_2_alg».proof.Proof.Gen.Pre_finite_inputs
import proofs.«149407_g2000502456341497_pallasbulk_61_2_alg».proof.Proof.Spec
import Idealize.ShloMosaic.Lib.ReduceAll
import Idealize.ShloMosaic.Lib.Affine
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- An extended real whose absolute value `max x (-x)` is below `+∞` (the pattern `0x7F800000`) is a real
    number: at either infinity the absolute value is `+∞`. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  unfold Ideal.cmp at h
  have hlt : max x (-x) < ⊤ := by
    by_contra hn
    simp [hn] at h
  induction x using EReal.rec with
  | bot => simp at hlt
  | coe r => exact ⟨r, rfl⟩
  | top => simp at hlt

/-- Under the precondition the adjacency, the features and the first weights have real entries. -/
theorem real_inputs (a0 : FVec Ideal S8192x8192 .f32) (a1 : FVec Ideal S8192x512 .f32) (a2 : FVec Ideal S512x256 .f32)
    (a3 : FVec Ideal S1x256 .f32) (a4 : FVec Ideal S256x128 .f32) (a5 : FVec Ideal S1x128 .f32)
    (hpre : fn (F := Ideal) a0 a1 a2 a3 a4 a5 = fun _ => 1#1) :
    GCN.Real (a0 : GCN.Mat 8192 8192) ∧ GCN.Real (a1 : GCN.Mat 8192 512) ∧ GCN.Real (a2 : GCN.Mat 512 256) := by
  have h := congrFun hpre ix0
  dsimp only [fn, fn_part1] at h
  obtain ⟨h4, -⟩ := IntOp.andi_eq_one.mp h
  obtain ⟨h3, -⟩ := IntOp.andi_eq_one.mp h4
  obtain ⟨h2, -⟩ := IntOp.andi_eq_one.mp h3
  obtain ⟨h1, hr2⟩ := IntOp.andi_eq_one.mp h2
  obtain ⟨hr0, hr1⟩ := IntOp.andi_eq_one.mp h1
  refine ⟨fun i => ?_, fun i => ?_, fun i => ?_⟩
  · exact real_of_abs_lt_top (a0 i) (Host.reduce_andi_all _ _ _ _ ix0 hr0 i)
  · exact real_of_abs_lt_top (a1 i) (Host.reduce_andi_all _ _ _ _ ix0 hr1 i)
  · exact real_of_abs_lt_top (a2 i) (Host.reduce_andi_all _ _ _ _ ix0 hr2 i)

end Cert.Finite

end
-- ==== Proof.KRun.lean ====
/-
  The run of the whole program with its result kept: every weakly fair execution terminates without a fault, the
  result array ends holding what the last region's write-backs leave in it (the fold of the buffer contents through
  the host operations and the regions, read at the result's buffer), and the six argument arrays end unchanged.
-/
import proofs.«149407_g2000502456341497_pallasbulk_61_2_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result buffer at the last boundary's contents and the arguments as launched. -/
theorem run_W4 : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Val

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.KRegion0.lean ====
/-
  The first region of the kernel: the features times the first weights, `P = X · W1`, one block of 1024 rows per
  grid point.

  At grid point `t` the body multiplies rows `1024 t … 1024 t + 1023` of `X` by the whole of `W1` and writes the
  product to the same rows of the output array. Each entry of a block is therefore the entry of the whole product
  `X · W1` at the block's place in the array, the eight blocks tile the 8192 rows, and the array ends holding
  `X · W1` — whatever the region found in its input arrays.
-/
import proofs.«149407_g2000502456341497_pallasbulk_61_2_alg».proof.Proof.Gen.KernelIdeal.Frame
import proofs.«149407_g2000502456341497_pallasbulk_61_2_alg».proof.Proof.LibMatmul
import proofs.«149407_g2000502456341497_pallasbulk_61_2_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- The body's stored value at an entry: the sum over the 512 features of row `p` of the loaded block of `X`
    against column `q` of `W1`. -/
theorem pay0_apply (x0 : Vec Ideal S1024x512 .f32) (x1 : Vec Ideal S512x256 .bf16) (p : Fin 1024) (q : Fin 256) :
    (k0_pay1 x0 x1 (ix2 p q) : EReal) = ∑ k : Fin 512, (x0 (ix2 p k) : EReal) * (x1 (ix2 k q) : EReal) := by
  refine (PlainMatmul.apply (d := dot_S1024x512_S512x256_S1024x256_1_0_0_1_n_n) ⟨rfl, rfl, rfl, rfl, rfl, rfl⟩ none _ _ p q).trans ?_
  refine Finset.sum_congr rfl fun k _ => ?_
  rw [shapeCast_self]
  rfl

/-- One entry of one block: if the loaded block of `X` is rows `o …` of the array `X`, the loaded `W1` is the
    array `W`, and the entry `y` of the block sits at `i` in the output array (row `o + y 0`), the stored value
    is `(X · W) i`. -/
theorem point0 (x0 : Vec Ideal S1024x512 .f32) (x1 : Vec Ideal S512x256 .bf16) (X : GCN.Mat 8192 512) (W : GCN.Mat 512 256)
    (y : S1024x256.Idx) (i : S8192x256.Idx) (o : ℕ)
    (h0 : ∀ (a : S1024x512.Idx) (b : S8192x512.Idx), (b 0).val = o + (a 0).val → (b 1).val = (a 1).val → (x0 a : EReal) = X b)
    (h1 : ∀ (a : S512x256.Idx) (b : S512x256.Idx), (b 0).val = (a 0).val → (b 1).val = (a 1).val → (x1 a : EReal) = W b)
    (hi0 : (i 0).val = o + (y 0).val) (hi1 : (i 1).val = (y 1).val) :
    (k0_pay1 x0 x1 y : EReal) = GCN.mm X W i := by
  obtain ⟨p, q, rfl⟩ : ∃ (p : Fin 1024) (q : Fin 256), y = ix2 p q := ⟨y 0, y 1, eq_ix2 y⟩
  obtain ⟨r, s, rfl⟩ : ∃ (r : Fin 8192) (s : Fin 256), i = ix2 r s := ⟨i 0, i 1, eq_ix2 i⟩
  rw [pay0_apply, GCN.mm_ix2]
  refine Finset.sum_congr rfl fun k _ => ?_
  rw [h0 (ix2 p k) (ix2 r k) hi0 rfl, h1 (ix2 k q) (ix2 k s) rfl hi1]

/-- The printed index maps over the grid: the block of `X` and the output block move with the point along the
    rows; `W1` is the one whole block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `X · W1` of the arrays as the region finds them. -/
theorem flushed0 (c : Dev nD) (t : Fin cfg0.N) :
    (dat0 V c).flushed 2 t = ((cfg0.win 2).blk t).view.read (Elt Ideal) (GCN.mm (V c main_arg1) (V c main_call0_v0)) := by
  show (cfg0.win 2).cut (grid0.coords t) ((dat0 V c).after 2 t) = _
  rw [after0_2]
  unfold out0_2
  rw [View.canon_unit_zero origin2]
  simp only [View.ld_unit_zero (S := S1024x512) origin2, View.ld_unit_zero (S := S512x256) origin2]
  obtain ⟨e0, e1, e2, e3, e4, e5⟩ := idx0 t
  funext y
  refine point0 (iblk0 V c 0 t) (iblk0 V c 1 t) (V c main_arg1) (V c main_call0_v0) y _ (t.val * 1024) ?_ ?_ ?_ ?_
  · intro a b hb0 hb1
    show V c main_arg1 (((cfg0.win 0).blk t).view.emb a) = V c main_arg1 b
    refine congrArg (V c main_arg1) (funext fun d => Fin.ext ?_)
    match d with
    | ⟨0, _⟩ => show win0_0.index t (0 : Fin 2) * 1024 + 1 * (a 0).val = (b 0).val; omega
    | ⟨1, _⟩ => show win0_0.index t (1 : Fin 2) * 512 + 1 * (a 1).val = (b 1).val; omega
  · intro a b hb0 hb1
    show V c main_call0_v0 (((cfg0.win 1).blk t).view.emb a) = V c main_call0_v0 b
    refine congrArg (V c main_call0_v0) (funext fun d => Fin.ext ?_)
    match d with
    | ⟨0, _⟩ => show win0_1.index t (0 : Fin 2) * 512 + 1 * (a 0).val = (b 0).val; omega
    | ⟨1, _⟩ => show win0_1.index t (1 : Fin 2) * 256 + 1 * (a 1).val = (b 1).val; omega
  · show win0_2.index t (0 : Fin 2) * 1024 + 1 * (y 0).val = t.val * 1024 + (y 0).val; omega
  · show win0_2.index t (1 : Fin 2) * 256 + 1 * (y 1).val = (y 1).val; omega

/-- An index of the array is in point `t`'s block iff each coordinate is in the block's range on its axis. -/
theorem mem_blk0 (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_call0_v2).slice (win0_2.rect t)).set ↔ _
  rw [View.set_slice_whole, Rect.mem_set_unit]
  exact Iff.rfl

/-- The eight blocks of 1024 rows tile the array: row `r` is in the block of point `r / 1024`. -/
theorem cover0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 8 := N_0
  have ht : (i 0).val / 1024 < cfg0.N := by rw [hN]; omega
  obtain ⟨e0, e1, e2, e3, e4, e5⟩ := idx0 ⟨(i 0).val / 1024, ht⟩
  have e4' : win0_2.index ⟨(i 0).val / 1024, ht⟩ (0 : Fin 2) = (i 0).val / 1024 := e4
  refine ⟨⟨(i 0).val / 1024, ht⟩, flush0_2 _, ?_⟩
  rw [mem_blk0]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    omega
  | ⟨1, _⟩ =>
    show win0_2.index ⟨(i 0).val / 1024, ht⟩ (1 : Fin 2) * 256 ≤ (i 1).val ∧ (i 1).val < win0_2.index ⟨(i 0).val / 1024, ht⟩ (1 : Fin 2) * 256 + 256
    omega

/-- The output array of the first region ends holding `X · W1` of the arrays the region found. -/
theorem final0 (c : Dev nD) : (dat0 V c).arrAt 2 cfg0.N = GCN.mm (V c main_arg1) (V c main_call0_v0) :=
  (dat0 V c).arrAt_eq_of_cover 2 _ (fun t _ => flushed0 V c t) cover0

end Cert.KernelIdeal.Val

end
-- ==== Proof.KRegion1.lean ====
/-
  The second region of the kernel: the hidden layer times the second weights, `Q = relu (A · P + b1) · W2`, one
  block of 256 rows per grid point.

  At grid point `t` the body multiplies rows `256 t … 256 t + 255` of the adjacency by the whole of `P`, adds the
  bias row to every row, clips below at zero, multiplies by the whole of `W2` and writes the result to the same rows
  of the output. A row of the result depends on the same row of the adjacency only, so each entry of a block is the
  entry of the whole-array expression at the block's place; the 32 blocks tile the 8192 rows, and the array ends
  holding `relu (A · P + b1) · W2` of the arrays the region found.
-/
import proofs.«149407_g2000502456341497_pallasbulk_61_2_alg».proof.Proof.Gen.KernelIdeal.Frame
import proofs.«149407_g2000502456341497_pallasbulk_61_2_alg».proof.Proof.LibMatmul
import proofs.«149407_g2000502456341497_pallasbulk_61_2_alg».proof.Proof.Spec
import proofs.«149407_g2000502456341497_pallasbulk_61_2_alg».proof.Proof.KRegion0
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The body's stored value at an entry: the sum over the 256 hidden units `h` of the clipped activation of row
    `p` at `h` — row `p` of the loaded adjacency block against column `h` of `P`, plus the bias at `h` — times
    `W2` at `(h, q)`. -/
theorem pay1_apply (x0 : Vec Ideal S256x8192 .f32) (x1 : Vec Ideal S8192x256 .bf16) (x2 : Vec Ideal S1x256 .f32)
    (x3 : Vec Ideal S256x128 .bf16) (p : Fin 256) (q : Fin 128) :
    (k1_pay1 x0 x1 x2 x3 (ix2 p q) : EReal)
      = ∑ h : Fin 256, max ((∑ k : Fin 8192, (x0 (ix2 p k) : EReal) * (x1 (ix2 k h) : EReal)) + (x2 (ix2 0 h) : EReal)) 0
          * (x3 (ix2 h q) : EReal) := by
  refine (PlainMatmul.apply (d := dot_S256x256_S256x128_S256x128_1_0_0_1_n_n) ⟨rfl, rfl, rfl, rfl, rfl, rfl⟩ none _ _ p q).trans ?_
  refine Finset.sum_congr rfl fun h _ => ?_
  simp only [shapeCast_self]
  refine congrArg (· * (x3 (ix2 h q) : EReal)) ?_
  refine (congrArg₂ max (congrArg₂ (· + ·)
    (PlainMatmul.apply (φ₁ := .bf16) (φ₂ := .bf16) (d := dot_S256x8192_S8192x256_S256x256_1_0_0_1_n_n)
      ⟨rfl, rfl, rfl, rfl, rfl, rfl⟩ none (truncf (F := Ideal) .bf16 x0 (by decide)) x1 p h)
    (broadcastTo_apply x2 _ (ix2 p h) (ix2 0 h) (fun a => match a with | ⟨0, _⟩ => rfl | ⟨1, _⟩ => rfl)))
    Ideal.ofBits_zero_f32).trans ?_
  rfl

/-- One entry of one block against the whole-array expression. -/
theorem point1 (x0 : Vec Ideal S256x8192 .f32) (x1 : Vec Ideal S8192x256 .bf16) (x2 : Vec Ideal S1x256 .f32)
    (x3 : Vec Ideal S256x128 .bf16)
    (A : GCN.Mat 8192 8192) (Pm : GCN.Mat 8192 256) (b : GCN.Mat 1 256) (W : GCN.Mat 256 128)
    (y : S256x128.Idx) (i : S8192x128.Idx) (o : ℕ)
    (h0 : ∀ (a : S256x8192.Idx) (b' : S8192x8192.Idx), (b' 0).val = o + (a 0).val → (b' 1).val = (a 1).val → (x0 a : EReal) = A b')
    (h1 : ∀ (a : S8192x256.Idx) (b' : S8192x256.Idx), (b' 0).val = (a 0).val → (b' 1).val = (a 1).val → (x1 a : EReal) = Pm b')
    (h2 : ∀ (a : S1x256.Idx) (b' : S1x256.Idx), (b' 0).val = (a 0).val → (b' 1).val = (a 1).val → (x2 a : EReal) = b b')
    (h3 : ∀ (a : S256x128.Idx) (b' : S256x128.Idx), (b' 0).val = (a 0).val → (b' 1).val = (a 1).val → (x3 a : EReal) = W b')
    (hi0 : (i 0).val = o + (y 0).val) (hi1 : (i 1).val = (y 1).val) :
    (k1_pay1 x0 x1 x2 x3 y : EReal) = GCN.mm (GCN.layer A Pm b) W i := by
  obtain ⟨p, q, rfl⟩ : ∃ (p : Fin 256) (q : Fin 128), y = ix2 p q := ⟨y 0, y 1, eq_ix2 y⟩
  obtain ⟨r, s, rfl⟩ : ∃ (r : Fin 8192) (s : Fin 128), i = ix2 r s := ⟨i 0, i 1, eq_ix2 i⟩
  rw [pay1_apply, GCN.mm_ix2]
  refine Finset.sum_congr rfl fun h _ => ?_
  rw [GCN.layer_ix2, h2 (ix2 0 h) (ix2 0 h) rfl rfl, h3 (ix2 h q) (ix2 h s) rfl hi1]
  refine congrArg (fun t : EReal => max (t + b (ix2 0 h)) 0 * W (ix2 h s)) (Finset.sum_congr rfl fun k _ => ?_)
  rw [h0 (ix2 p k) (ix2 r k) hi0 rfl, h1 (ix2 k h) (ix2 k h) rfl rfl]

/-- The printed index maps over the grid: the adjacency block and the output block move with the point along the
    rows; `P`, the bias and `W2` are whole blocks. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the expression of the arrays as the region finds them. -/
theorem flushed1 (c : Dev nD) (t : Fin cfg1.N) :
    (dat1 V c).flushed 4 t = ((cfg1.win 4).blk t).view.read (Elt Ideal)
      (GCN.mm (GCN.layer (V c main_arg0) (V c main_call0_v2) (V c main_arg3)) (V c main_call0_v1)) := by
  show (cfg1.win 4).cut (grid1.coords t) ((dat1 V c).after 4 t) = _
  rw [after1_4]
  unfold out1_4
  rw [View.canon_unit_zero origin2]
  simp only [View.ld_unit_zero (S := S256x8192) origin2, View.ld_unit_zero (S := S8192x256) origin2,
    View.ld_unit_zero (S := S1x256) origin2, View.ld_unit_zero (S := S256x128) origin2]
  obtain ⟨e0, e1, e2, e3, e4, e5, e6, e7, e8, e9⟩ := idx1 t
  funext y
  refine point1 (iblk1 V c 0 t) (iblk1 V c 1 t) (iblk1 V c 2 t) (iblk1 V c 3 t)
    (V c main_arg0) (V c main_call0_v2) (V c main_arg3) (V c main_call0_v1) y _ (t.val * 256) ?_ ?_ ?_ ?_ ?_ ?_
  · intro a b hb0 hb1
    show V c main_arg0 (((cfg1.win 0).blk t).view.emb a) = V c main_arg0 b
    refine congrArg (V c main_arg0) (funext fun d => Fin.ext ?_)
    match d with
    | ⟨0, _⟩ => show win1_0.index t (0 : Fin 2) * 256 + 1 * (a 0).val = (b 0).val; omega
    | ⟨1, _⟩ => show win1_0.index t (1 : Fin 2) * 8192 + 1 * (a 1).val = (b 1).val; omega
  · intro a b hb0 hb1
    show V c main_call0_v2 (((cfg1.win 1).blk t).view.emb a) = V c main_call0_v2 b
    refine congrArg (V c main_call0_v2) (funext fun d => Fin.ext ?_)
    match d with
    | ⟨0, _⟩ => show win1_1.index t (0 : Fin 2) * 8192 + 1 * (a 0).val = (b 0).val; omega
    | ⟨1, _⟩ => show win1_1.index t (1 : Fin 2) * 256 + 1 * (a 1).val = (b 1).val; omega
  · intro a b hb0 hb1
    show V c main_arg3 (((cfg1.win 2).blk t).view.emb a) = V c main_arg3 b
    refine congrArg (V c main_arg3) (funext fun d => Fin.ext ?_)
    match d with
    | ⟨0, _⟩ => show win1_2.index t (0 : Fin 2) * 1 + 1 * (a 0).val = (b 0).val; omega
    | ⟨1, _⟩ => show win1_2.index t (1 : Fin 2) * 256 + 1 * (a 1).val = (b 1).val; omega
  · intro a b hb0 hb1
    show V c main_call0_v1 (((cfg1.win 3).blk t).view.emb a) = V c main_call0_v1 b
    refine congrArg (V c main_call0_v1) (funext fun d => Fin.ext ?_)
    match d with
    | ⟨0, _⟩ => show win1_3.index t (0 : Fin 2) * 256 + 1 * (a 0).val = (b 0).val; omega
    | ⟨1, _⟩ => show win1_3.index t (1 : Fin 2) * 128 + 1 * (a 1).val = (b 1).val; omega
  · show win1_4.index t (0 : Fin 2) * 256 + 1 * (y 0).val = t.val * 256 + (y 0).val; omega
  · show win1_4.index t (1 : Fin 2) * 128 + 1 * (y 1).val = (y 1).val; omega

/-- An index of the array is in point `t`'s block iff each coordinate is in the block's range on its axis. -/
theorem mem_blk1 (t : Fin cfg1.N) (i : S8192x128.Idx) :
    i ∈ ((cfg1.win 4).blk t).view.set ↔ ∀ a : Fin 2, win1_4.index t a * S256x128.size a ≤ (i a).val ∧ (i a).val < win1_4.index t a * S256x128.size a + S256x128.size a := by
  show i ∈ ((View.whole main_call0_v3).slice (win1_4.rect t)).set ↔ _
  rw [View.set_slice_whole, Rect.mem_set_unit]
  exact Iff.rfl

/-- The 32 blocks of 256 rows tile the array: row `r` is in the block of point `r / 256`. -/
theorem cover1 (i : S8192x128.Idx) : ∃ t : Fin cfg1.N, (cfg1.win 4).flush t = true ∧ i ∈ ((cfg1.win 4).blk t).view.set := by
  have hi0 : (i 0).val < 8192 := (i 0).isLt
  have hi1 : (i 1).val < 128 := (i 1).isLt
  have hN : cfg1.N = 32 := N_1
  have ht : (i 0).val / 256 < cfg1.N := by rw [hN]; omega
  obtain ⟨e0, e1, e2, e3, e4, e5, e6, e7, e8, e9⟩ := idx1 ⟨(i 0).val / 256, ht⟩
  have e8' : win1_4.index ⟨(i 0).val / 256, ht⟩ (0 : Fin 2) = (i 0).val / 256 := e8
  refine ⟨⟨(i 0).val / 256, ht⟩, flush1_4 _, ?_⟩
  rw [mem_blk1]
  intro a
  match a with
  | ⟨0, _⟩ =>
    show win1_4.index ⟨(i 0).val / 256, ht⟩ (0 : Fin 2) * 256 ≤ (i 0).val ∧ (i 0).val < win1_4.index ⟨(i 0).val / 256, ht⟩ (0 : Fin 2) * 256 + 256
    omega
  | ⟨1, _⟩ =>
    show win1_4.index ⟨(i 0).val / 256, ht⟩ (1 : Fin 2) * 128 ≤ (i 1).val ∧ (i 1).val < win1_4.index ⟨(i 0).val / 256, ht⟩ (1 : Fin 2) * 128 + 128
    omega

/-- The output array of the second region ends holding `relu (A · P + b1) · W2` of the arrays the region found. -/
theorem final1 (c : Dev nD) : (dat1 V c).arrAt 4 cfg1.N
    = GCN.mm (GCN.layer (V c main_arg0) (V c main_call0_v2) (V c main_arg3)) (V c main_call0_v1) :=
  (dat1 V c).arrAt_eq_of_cover 4 _ (fun t _ => flushed1 V c t) cover1

end Cert.KernelIdeal.Val

end
-- ==== Proof.KRegion2.lean ====
/-
  The third region of the kernel: the output layer, `out = relu (A · Q + b2)`, one block of 256 rows per grid point.

  At grid point `t` the body multiplies rows `256 t … 256 t + 255` of the adjacency by the whole of `Q`, adds the
  bias row to every row, clips below at zero and writes the result to the same rows of the output. Each entry of a
  block is the entry of the whole-array layer at the block's place, the 32 blocks tile the 8192 rows, and the
  array ends holding `relu (A · Q + b2)` of the arrays the region found.
-/
import proofs.«149407_g2000502456341497_pallasbulk_61_2_alg».proof.Proof.Gen.KernelIdeal.Frame
import proofs.«149407_g2000502456341497_pallasbulk_61_2_alg».proof.Proof.LibMatmul
import proofs.«149407_g2000502456341497_pallasbulk_61_2_alg».proof.Proof.Spec
import proofs.«149407_g2000502456341497_pallasbulk_61_2_alg».proof.Proof.KRegion0
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The body's stored value at an entry: row `p` of the loaded adjacency block against column `q` of `Q`, plus
    the bias at column `q`, clipped below at zero. -/
theorem pay2_apply (x0 : Vec Ideal S256x8192 .f32) (x1 : Vec Ideal S8192x128 .bf16) (x2 : Vec Ideal S1x128 .f32)
    (p : Fin 256) (q : Fin 128) :
    (k2_pay1 x0 x1 x2 (ix2 p q) : EReal)
      = max ((∑ k : Fin 8192, (x0 (ix2 p k) : EReal) * (x1 (ix2 k q) : EReal)) + (x2 (ix2 0 q) : EReal)) 0 := by
  refine (congrArg₂ max (congrArg₂ (· + ·)
    (PlainMatmul.apply (d := dot_S256x8192_S8192x128_S256x128_1_0_0_1_n_n) ⟨rfl, rfl, rfl, rfl, rfl, rfl⟩ none _ _ p q)
    (broadcastTo_apply x2 _ (ix2 p q) (ix2 0 q) (fun a => match a with | ⟨0, _⟩ => rfl | ⟨1, _⟩ => rfl)))
    Ideal.ofBits_zero_f32).trans ?_
  refine congrArg (fun s : EReal => max (s + (x2 (ix2 0 q) : EReal)) 0) (Finset.sum_congr rfl fun k _ => ?_)
  rw [shapeCast_self]
  rfl

/-- One entry of one block against the whole-array layer. -/
theorem point2 (x0 : Vec Ideal S256x8192 .f32) (x1 : Vec Ideal S8192x128 .bf16) (x2 : Vec Ideal S1x128 .f32)
    (A : GCN.Mat 8192 8192) (Q : GCN.Mat 8192 128) (b : GCN.Mat 1 128)
    (y : S256x128.Idx) (i : S8192x128.Idx) (o : ℕ)
    (h0 : ∀ (a : S256x8192.Idx) (b' : S8192x8192.Idx), (b' 0).val = o + (a 0).val → (b' 1).val = (a 1).val → (x0 a : EReal) = A b')
    (h1 : ∀ (a : S8192x128.Idx) (b' : S8192x128.Idx), (b' 0).val = (a 0).val → (b' 1).val = (a 1).val → (x1 a : EReal) = Q b')
    (h2 : ∀ (a : S1x128.Idx) (b' : S1x128.Idx), (b' 0).val = (a 0).val → (b' 1).val = (a 1).val → (x2 a : EReal) = b b')
    (hi0 : (i 0).val = o + (y 0).val) (hi1 : (i 1).val = (y 1).val) :
    (k2_pay1 x0 x1 x2 y : EReal) = GCN.layer A Q b i := by
  obtain ⟨p, q, rfl⟩ : ∃ (p : Fin 256) (q : Fin 128), y = ix2 p q := ⟨y 0, y 1, eq_ix2 y⟩
  obtain ⟨r, s, rfl⟩ : ∃ (r : Fin 8192) (s : Fin 128), i = ix2 r s := ⟨i 0, i 1, eq_ix2 i⟩
  rw [pay2_apply, GCN.layer_ix2, h2 (ix2 0 q) (ix2 0 s) rfl hi1]
  refine congrArg (fun t : EReal => max (t + b (ix2 0 s)) 0) (Finset.sum_congr rfl fun k _ => ?_)
  rw [h0 (ix2 p k) (ix2 r k) hi0 rfl, h1 (ix2 k q) (ix2 k s) rfl hi1]

/-- The printed index maps over the grid: the adjacency block and the output block move with the point along the
    rows; `Q` and the bias are whole blocks. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the layer of the arrays as the region finds them. -/
theorem flushed2 (c : Dev nD) (t : Fin cfg2.N) :
    (dat2 V c).flushed 3 t = ((cfg2.win 3).blk t).view.read (Elt Ideal)
      (GCN.layer (V c main_arg0) (V c main_call0_v3) (V c main_arg5)) := by
  show (cfg2.win 3).cut (grid2.coords t) ((dat2 V c).after 3 t) = _
  rw [after2_3]
  unfold out2_3
  rw [View.canon_unit_zero origin2]
  simp only [View.ld_unit_zero (S := S256x8192) origin2, View.ld_unit_zero (S := S8192x128) origin2,
    View.ld_unit_zero (S := S1x128) origin2]
  obtain ⟨e0, e1, e2, e3, e4, e5, e6, e7⟩ := idx2 t
  funext y
  refine point2 (iblk2 V c 0 t) (iblk2 V c 1 t) (iblk2 V c 2 t) (V c main_arg0) (V c main_call0_v3) (V c main_arg5) y _
    (t.val * 256) ?_ ?_ ?_ ?_ ?_
  · intro a b hb0 hb1
    show V c main_arg0 (((cfg2.win 0).blk t).view.emb a) = V c main_arg0 b
    refine congrArg (V c main_arg0) (funext fun d => Fin.ext ?_)
    match d with
    | ⟨0, _⟩ => show win2_0.index t (0 : Fin 2) * 256 + 1 * (a 0).val = (b 0).val; omega
    | ⟨1, _⟩ => show win2_0.index t (1 : Fin 2) * 8192 + 1 * (a 1).val = (b 1).val; omega
  · intro a b hb0 hb1
    show V c main_call0_v3 (((cfg2.win 1).blk t).view.emb a) = V c main_call0_v3 b
    refine congrArg (V c main_call0_v3) (funext fun d => Fin.ext ?_)
    match d with
    | ⟨0, _⟩ => show win2_1.index t (0 : Fin 2) * 8192 + 1 * (a 0).val = (b 0).val; omega
    | ⟨1, _⟩ => show win2_1.index t (1 : Fin 2) * 128 + 1 * (a 1).val = (b 1).val; omega
  · intro a b hb0 hb1
    show V c main_arg5 (((cfg2.win 2).blk t).view.emb a) = V c main_arg5 b
    refine congrArg (V c main_arg5) (funext fun d => Fin.ext ?_)
    match d with
    | ⟨0, _⟩ => show win2_2.index t (0 : Fin 2) * 1 + 1 * (a 0).val = (b 0).val; omega
    | ⟨1, _⟩ => show win2_2.index t (1 : Fin 2) * 128 + 1 * (a 1).val = (b 1).val; omega
  · show win2_3.index t (0 : Fin 2) * 256 + 1 * (y 0).val = t.val * 256 + (y 0).val; omega
  · show win2_3.index t (1 : Fin 2) * 128 + 1 * (y 1).val = (y 1).val; omega

/-- An index of the array is in point `t`'s block iff each coordinate is in the block's range on its axis. -/
theorem mem_blk2 (t : Fin cfg2.N) (i : S8192x128.Idx) :
    i ∈ ((cfg2.win 3).blk t).view.set ↔ ∀ a : Fin 2, win2_3.index t a * S256x128.size a ≤ (i a).val ∧ (i a).val < win2_3.index t a * S256x128.size a + S256x128.size a := by
  show i ∈ ((View.whole main_v0).slice (win2_3.rect t)).set ↔ _
  rw [View.set_slice_whole, Rect.mem_set_unit]
  exact Iff.rfl

/-- The 32 blocks of 256 rows tile the array: row `r` is in the block of point `r / 256`. -/
theorem cover2 (i : S8192x128.Idx) : ∃ t : Fin cfg2.N, (cfg2.win 3).flush t = true ∧ i ∈ ((cfg2.win 3).blk t).view.set := by
  have hi0 : (i 0).val < 8192 := (i 0).isLt
  have hi1 : (i 1).val < 128 := (i 1).isLt
  have hN : cfg2.N = 32 := N_2
  have ht : (i 0).val / 256 < cfg2.N := by rw [hN]; omega
  obtain ⟨e0, e1, e2, e3, e4, e5, e6, e7⟩ := idx2 ⟨(i 0).val / 256, ht⟩
  have e6' : win2_3.index ⟨(i 0).val / 256, ht⟩ (0 : Fin 2) = (i 0).val / 256 := e6
  refine ⟨⟨(i 0).val / 256, ht⟩, flush2_3 _, ?_⟩
  rw [mem_blk2]
  intro a
  match a with
  | ⟨0, _⟩ =>
    show win2_3.index ⟨(i 0).val / 256, ht⟩ (0 : Fin 2) * 256 ≤ (i 0).val ∧ (i 0).val < win2_3.index ⟨(i 0).val / 256, ht⟩ (0 : Fin 2) * 256 + 256
    omega
  | ⟨1, _⟩ =>
    show win2_3.index ⟨(i 0).val / 256, ht⟩ (1 : Fin 2) * 128 ≤ (i 1).val ∧ (i 1).val < win2_3.index ⟨(i 0).val / 256, ht⟩ (1 : Fin 2) * 128 + 128
    omega

/-- The output array of the third region ends holding `relu (A · Q + b2)` of the arrays the region found. -/
theorem final2 (c : Dev nD) : (dat2 V c).arrAt 3 cfg2.N = GCN.layer (V c main_arg0) (V c main_call0_v3) (V c main_arg5) :=
  (dat2 V c).arrAt_eq_of_cover 3 _ (fun t _ => flushed2 V c t) cover2

end Cert.KernelIdeal.Val

end
-- ==== Proof.KValue.lean ====
/-
  The kernel's result as one function of its six arguments.

  The buffer contents are followed through the program: the two host conversions of the weights (the identity on
  extended reals), then the three regions, each of which leaves in its output array the whole-array expression of
  what it found in its input arrays, every other array being carried over unchanged. Substituting, the result array
  ends holding `relu (A · (relu (A · (X · W1) + b1) · W2) + b2)` of the launch contents of the arguments.
-/
import proofs.«149407_g2000502456341497_pallasbulk_61_2_alg».proof.Proof.KRun
import proofs.«149407_g2000502456341497_pallasbulk_61_2_alg».proof.Proof.KRegion0
import proofs.«149407_g2000502456341497_pallasbulk_61_2_alg».proof.Proof.KRegion1
import proofs.«149407_g2000502456341497_pallasbulk_61_2_alg».proof.Proof.KRegion2
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL.Sem

variable (m : (ℓ : Loc nD τ sig) → Buf (Elt Ideal) ℓ) (ρ : Dev nD → PrngReg)

/-! ## The host conversions write only the two converted weights -/

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))).trans rfl

theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))).trans rfl

theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))).trans rfl

theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))).trans rfl

/-- The converted first weights are the first weights: the change of format is the identity on extended reals. -/
theorem V1_w1 (c : Dev nD) :
    (V1 m ρ c main_call0_v0 : S512x256.Idx → EReal) = (m ((c : Thread nD τ).loc main_arg2) : S512x256.Idx → EReal) := by
  have e : (V1 m ρ c main_call0_v0 : S512x256.Idx → EReal)
      = truncf (F := Ideal) .bf16 (m ((c : Thread nD τ).loc main_arg2) : FVec Ideal S512x256 .f32)
          (by decide : FTy.bf16.bits < FTy.f32.bits) := by
    dsimp only [V1, W1, hostOps0]; after_results; rfl
  rw [e]; rfl

/-- The converted second weights are the second weights. -/
theorem V1_w2 (c : Dev nD) :
    (V1 m ρ c main_call0_v1 : S256x128.Idx → EReal) = (m ((c : Thread nD τ).loc main_arg4) : S256x128.Idx → EReal) := by
  have e : (V1 m ρ c main_call0_v1 : S256x128.Idx → EReal)
      = truncf (F := Ideal) .bf16 (m ((c : Thread nD τ).loc main_arg4) : FVec Ideal S256x128 .f32)
          (by decide : FTy.bf16.bits < FTy.f32.bits) := by
    dsimp only [V1, W1, hostOps0]; after_results; rfl
  rw [e]; rfl

/-! ## The arrays each region finds -/

/-- The first region's output: `P = X · W1`. -/
theorem P_eq (c : Dev nD) : (V2 m ρ c main_call0_v2 : GCN.Mat 8192 256)
    = GCN.mm (m ((c : Thread nD τ).loc main_arg1) : GCN.Mat 8192 512) (m ((c : Thread nD τ).loc main_arg2) : GCN.Mat 512 256) := by
  refine ((W2_arr m ρ c 2).trans (final0 (V1 m ρ) c)).trans ?_
  rw [show (V1 m ρ c main_arg1 : GCN.Mat 8192 512) = m ((c : Thread nD τ).loc main_arg1) from W1_arg1 m ρ c, V1_w1 m ρ c]

theorem V2_arg0 (c : Dev nD) : (V2 m ρ c main_arg0 : GCN.Mat 8192 8192) = m ((c : Thread nD τ).loc main_arg0) :=
  (W2_of_ne m ρ c main_arg0 (by decide)).trans (W1_arg0 m ρ c)

theorem V2_arg3 (c : Dev nD) : (V2 m ρ c main_arg3 : GCN.Mat 1 256) = m ((c : Thread nD τ).loc main_arg3) :=
  (W2_of_ne m ρ c main_arg3 (by decide)).trans (W1_arg3 m ρ c)

theorem V2_w2 (c : Dev nD) : (V2 m ρ c main_call0_v1 : GCN.Mat 256 128) = (m ((c : Thread nD τ).loc main_arg4) : GCN.Mat 256 128) :=
  (W2_of_ne m ρ c main_call0_v1 (by decide)).trans (V1_w2 m ρ c)

/-- The second region's output: `Q = relu (A · P + b1) · W2`. -/
theorem Q_eq (c : Dev nD) : (V3 m ρ c main_call0_v3 : GCN.Mat 8192 128)
    = GCN.hiddenK (m ((c : Thread nD τ).loc main_arg0)) (m ((c : Thread nD τ).loc main_arg1)) (m ((c : Thread nD τ).loc main_arg2))
        (m ((c : Thread nD τ).loc main_arg3)) (m ((c : Thread nD τ).loc main_arg4)) := by
  refine ((W3_arr m ρ c 4).trans (final1 (V2 m ρ) c)).trans ?_
  rw [V2_arg0 m ρ c, P_eq m ρ c, V2_arg3 m ρ c, V2_w2 m ρ c]
  rfl

theorem V3_arg0 (c : Dev nD) : (V3 m ρ c main_arg0 : GCN.Mat 8192 8192) = m ((c : Thread nD τ).loc main_arg0) :=
  ((W3_arr m ρ c 0).trans (((dat1 (V2 m ρ) c).arrAt_in 0 rfl _).trans (A_eq1 (V2 m ρ) c 0))).trans (V2_arg0 m ρ c)

theorem V3_arg5 (c : Dev nD) : (V3 m ρ c main_arg5 : GCN.Mat 1 128) = m ((c : Thread nD τ).loc main_arg5) :=
  (W3_of_ne m ρ c main_arg5 (by decide)).trans ((W2_of_ne m ρ c main_arg5 (by decide)).trans (W1_arg5 m ρ c))

/-- The third region's output, the program's result. -/
theorem out_eq (c : Dev nD) : (W4 m ρ c (Proc.devRef .tc main_v0) : GCN.Mat 8192 128)
    = GCN.outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine ((W4_arr m ρ c 3).trans (final2 (V3 m ρ) c)).trans ?_
  rw [V3_arg0 m ρ c, Q_eq m ρ c, V3_arg5 m ρ c]
  rfl

/-! ## The run, read -/

/-- Every execution of the kernel's program ends with the result array at the kernel's arrangement of the layer
    expression of the arguments, and the arguments unchanged. -/
theorem run : θ_run defs (onTc (τ := τ) (main (F := Ideal))) ⟨m, fun _ => 0, ρ⟩ (fun r => ∀ c : Dev nD,
      r.2.mem ((c.tc : Thread nD τ).loc main_v0)
        = GCN.outK (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_eq m ρ c), (h c).2⟩) (run_W4 m ρ)

end Cert.KernelIdeal.Val

end
-- ==== Proof.RefRun.lean ====
/- The reference program's run with its RESULT kept: at the compiled mesh, from any memory with zero counters,
   every weakly fair execution of @main terminates without fault, the result array `main_v0` ends at the last
   boundary's contents `Gen.W3 m ρ c` read at `main_v0`, and the six argument arrays end as launched. -/
import proofs.«149407_g2000502456341497_pallasbulk_61_2_alg».proof.Proof.Gen.ReferenceIdeal.Frame

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result named: every final state holds, on each core, the result array at the contents
    the second region's write-backs leave (`Gen.W3` at `main_v0`), and each of the six arguments as launched. The
    last thread state holds EVERY unscoped buffer at `Gen.W3`; the result array is one of them. -/
theorem run_W3 : θ_run defs (onTc (τ := τ) (main (F := F))) ⟨m, fun _ => 0, ρ⟩ (fun r => ∀ c : Dev nD,
      r.2.mem ((c.tc : Thread nD τ).loc main_v0) = Gen.W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.ReferenceIdeal.Val

end
-- ==== Proof.LibPadNothing.lean ====
/- A host `pad` whose low padding and interior padding are zero on every axis, onto the operand's own shape (so
   the high padding is zero too), adds nothing: it is the operand. -/
import Idealize.ShloMosaic.Lib.KernelVsHost

namespace PadNothing

open Idealize.ShloMosaic

/-- `pad` onto the operand's own shape with no low and no interior padding is the identity: every index of the
    result is an index inside the operand (coordinate `0 + k · 1` on each axis), where `pad` reads the operand. -/
theorem pad_eq_self {s : Shape} {α : Type} (lo hi interior : Fin s.rank → Nat) (hlo : ∀ a, lo a = 0)
    (hint : ∀ a, interior a = 0) (x : s.Idx → α) {u : Shape} (v : u.Idx → α) (h : s.Pads lo hi interior s)
    (hu : 0 < u.numel) : pad s lo hi interior x v h hu = x :=
  funext fun j => pad_apply_of_inside lo hi interior x v h hu j j (fun a => by
    rw [hlo a, hint a, Nat.zero_add, Nat.zero_add, Nat.mul_one]; rfl)

/-- The rank-2 padding vector `![0, 0]` is zero on both axes. -/
theorem zero2 : ∀ a : Fin 2, (![0, 0] : Fin 2 → Nat) a = 0 := by decide

end PadNothing
-- ==== Proof.RefHost.lean ====
/- What the first region finds in its input arrays. Before the first region @main converts four of the arguments
   to bf16 (the identity on extended reals) and pads each of the six by nothing, so each input array of the region
   holds exactly the launch contents of one argument: A in `main_call0_v1`, X in `main_call0_v3`, W1 in
   `main_call0_v5`, b1 in `main_call0_v6`, W2 in `main_call0_v8`, b2 in `main_call0_v9`. -/
import proofs.«149407_g2000502456341497_pallasbulk_61_2_alg».proof.Proof.Gen.ReferenceIdeal.Frame
import proofs.«149407_g2000502456341497_pallasbulk_61_2_alg».proof.Proof.LibPadNothing
import Idealize.ShloMosaic.Lib.StableHlo.Run
import Idealize.ShloMosaic.Lib.ValueIdx

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL.Sem

variable (m : (ℓ : Loc nD τ sig) → Buf (Elt Ideal) ℓ) (ρ : Dev nD → PrngReg)

/-- Region 0 finds main_arg0 in `main_call0_v1`: the format change is the identity on extended reals, and the pad adds nothing. -/
theorem V1_v1 (c : Dev nD) :
    (Gen.V1 m ρ c main_call0_v1 : S8192x8192.Idx → EReal) = (m ((c : Thread nD τ).loc main_arg0) : S8192x8192.Idx → EReal) := by
  have e : (Gen.V1 m ρ c main_call0_v1 : S8192x8192.Idx → EReal)
      = pad S8192x8192 ![0, 0] ![0, 0] ![0, 0] (truncf (F := Ideal) .bf16 (m ((c : Thread nD τ).loc main_arg0) : FVec Ideal S8192x8192 .f32) bitsLt_bf16_f32)
          (sitofp (F := Ideal) .bf16 (constantI S_ 32 0#32)) pads_S8192x8192_S8192x8192_000_000 h_S_ := by
    dsimp only [Gen.V1, Gen.W1, Gen.hostOps0]; after_results; rfl
  rw [e]
  exact (PadNothing.pad_eq_self (s := S8192x8192) ![0, 0] ![0, 0] ![0, 0] PadNothing.zero2 PadNothing.zero2 _ _ _ _).trans rfl

/-- Region 0 finds main_arg1 in `main_call0_v3`: the format change is the identity on extended reals, and the pad adds nothing. -/
theorem V1_v3 (c : Dev nD) :
    (Gen.V1 m ρ c main_call0_v3 : S8192x512.Idx → EReal) = (m ((c : Thread nD τ).loc main_arg1) : S8192x512.Idx → EReal) := by
  have e : (Gen.V1 m ρ c main_call0_v3 : S8192x512.Idx → EReal)
      = pad S8192x512 ![0, 0] ![0, 0] ![0, 0] (truncf (F := Ideal) .bf16 (m ((c : Thread nD τ).loc main_arg1) : FVec Ideal S8192x512 .f32) bitsLt_bf16_f32)
          (sitofp (F := Ideal) .bf16 (constantI S_ 32 0#32)) pads_S8192x512_S8192x512_000_000 h_S_ := by
    dsimp only [Gen.V1, Gen.W1, Gen.hostOps0]; after_results; rfl
  rw [e]
  exact (PadNothing.pad_eq_self (s := S8192x512) ![0, 0] ![0, 0] ![0, 0] PadNothing.zero2 PadNothing.zero2 _ _ _ _).trans rfl

/-- Region 0 finds main_arg2 in `main_call0_v5`: the format change is the identity on extended reals, and the pad adds nothing. -/
theorem V1_v5 (c : Dev nD) :
    (Gen.V1 m ρ c main_call0_v5 : S512x256.Idx → EReal) = (m ((c : Thread nD τ).loc main_arg2) : S512x256.Idx → EReal) := by
  have e : (Gen.V1 m ρ c main_call0_v5 : S512x256.Idx → EReal)
      = pad S512x256 ![0, 0] ![0, 0] ![0, 0] (truncf (F := Ideal) .bf16 (m ((c : Thread nD τ).loc main_arg2) : FVec Ideal S512x256 .f32) bitsLt_bf16_f32)
          (sitofp (F := Ideal) .bf16 (constantI S_ 32 0#32)) pads_S512x256_S512x256_000_000 h_S_ := by
    dsimp only [Gen.V1, Gen.W1, Gen.hostOps0]; after_results; rfl
  rw [e]
  exact (PadNothing.pad_eq_self (s := S512x256) ![0, 0] ![0, 0] ![0, 0] PadNothing.zero2 PadNothing.zero2 _ _ _ _).trans rfl

/-- Region 0 finds main_arg3 in `main_call0_v6`: the pad adds nothing. -/
theorem V1_v6 (c : Dev nD) :
    (Gen.V1 m ρ c main_call0_v6 : S1x256.Idx → EReal) = (m ((c : Thread nD τ).loc main_arg3) : S1x256.Idx → EReal) := by
  have e : (Gen.V1 m ρ c main_call0_v6 : S1x256.Idx → EReal)
      = pad S1x256 ![0, 0] ![0, 0] ![0, 0] (m ((c : Thread nD τ).loc main_arg3) : FVec Ideal S1x256 .f32)
          (sitofp (F := Ideal) .f32 (constantI S_ 32 0#32)) pads_S1x256_S1x256_000_000 h_S_ := by
    dsimp only [Gen.V1, Gen.W1, Gen.hostOps0]; after_results; rfl
  rw [e]
  exact PadNothing.pad_eq_self (s := S1x256) ![0, 0] ![0, 0] ![0, 0] PadNothing.zero2 PadNothing.zero2 _ _ _ _

/-- Region 0 finds main_arg4 in `main_call0_v8`: the format change is the identity on extended reals, and the pad adds nothing. -/
theorem V1_v8 (c : Dev nD) :
    (Gen.V1 m ρ c main_call0_v8 : S256x128.Idx → EReal) = (m ((c : Thread nD τ).loc main_arg4) : S256x128.Idx → EReal) := by
  have e : (Gen.V1 m ρ c main_call0_v8 : S256x128.Idx → EReal)
      = pad S256x128 ![0, 0] ![0, 0] ![0, 0] (truncf (F := Ideal) .bf16 (m ((c : Thread nD τ).loc main_arg4) : FVec Ideal S256x128 .f32) bitsLt_bf16_f32)
          (sitofp (F := Ideal) .bf16 (constantI S_ 32 0#32)) pads_S256x128_S256x128_000_000 h_S_ := by
    dsimp only [Gen.V1, Gen.W1, Gen.hostOps0]; after_results; rfl
  rw [e]
  exact (PadNothing.pad_eq_self (s := S256x128) ![0, 0] ![0, 0] ![0, 0] PadNothing.zero2 PadNothing.zero2 _ _ _ _).trans rfl

/-- Region 0 finds main_arg5 in `main_call0_v9`: the pad adds nothing. -/
theorem V1_v9 (c : Dev nD) :
    (Gen.V1 m ρ c main_call0_v9 : S1x128.Idx → EReal) = (m ((c : Thread nD τ).loc main_arg5) : S1x128.Idx → EReal) := by
  have e : (Gen.V1 m ρ c main_call0_v9 : S1x128.Idx → EReal)
      = pad S1x128 ![0, 0] ![0, 0] ![0, 0] (m ((c : Thread nD τ).loc main_arg5) : FVec Ideal S1x128 .f32)
          (sitofp (F := Ideal) .f32 (constantI S_ 32 0#32)) pads_S1x128_S1x128_000_000 h_S_ := by
    dsimp only [Gen.V1, Gen.W1, Gen.hostOps0]; after_results; rfl
  rw [e]
  exact PadNothing.pad_eq_self (s := S1x128) ![0, 0] ![0, 0] ![0, 0] PadNothing.zero2 PadNothing.zero2 _ _ _ _

end Cert.ReferenceIdeal.Val

end
-- ==== Proof.RefRegion0.lean ====
/-
  The first region of the reference: `HW2 = relu ((A · X) · W1 + b1) · W2`, one block of 256 rows per grid point.

  At grid point `t` the body multiplies rows `256 t … 256 t + 255` of `A` by the whole of `X`, the product by the
  whole of `W1`, adds the bias row `b1` to every row, clips below at zero, multiplies by the whole of `W2`, and
  writes the result to the same rows of the output array. Every step works row by row, so each entry of a block
  is the entry of the whole expression at the block's place in the array; the 32 blocks tile the 8192 rows, and the
  array ends holding the whole expression — whatever the region found in its input arrays.
-/
import proofs.«149407_g2000502456341497_pallasbulk_61_2_alg».proof.Proof.Gen.ReferenceIdeal.Frame
import proofs.«149407_g2000502456341497_pallasbulk_61_2_alg».proof.Proof.LibMatmul
import proofs.«149407_g2000502456341497_pallasbulk_61_2_alg».proof.Proof.Spec
import Idealize.ShloMosaic.Lib.Pipeline.Value
import Idealize.ShloMosaic.Lib.ValueIdx

set_option maxRecDepth 16384

noncomputable section

namespace Cert.ReferenceIdeal.Val

open Idealize.ShloMosaic Idealize.ShloMosaic.TcCoe Idealize.SL.Sem Idealize.ShloMosaic.ValueIdx
open Idealize.ShloMosaic.Pipeline (Dat)
open Cert.ReferenceIdeal Cert.ReferenceIdeal.Gen

variable (V : (c : Dev nD) → (b : Ref sig .tc) → Buf (Elt Ideal) ((c : Thread nD τ).loc b))

private theorem origin2 : (![0, 0] : Fin 2 → Nat) = fun _ => 0 := funext fun a => by fin_cases a <;> rfl

/-- The body's stored value at an entry `(p, q)`: the sum over the 256 hidden units `h` of the clipped hidden
    activation at `(p, h)` — the sum over the 512 features `f` of `(A · X) (p, f) * W1 (f, h)`, plus the bias at
    `h`, clipped below at zero — times `W2 (h, q)`; `(A · X) (p, f)` itself the sum over the 8192 columns of the
    loaded block of `A`. -/
theorem pay0_apply (x0 : Vec Ideal S256x8192 .bf16) (x1 : Vec Ideal S8192x512 .bf16) (x2 : Vec Ideal S512x256 .bf16)
    (x3 : Vec Ideal S1x256 .f32) (x4 : Vec Ideal S256x128 .bf16) (p : Fin 256) (q : Fin 128) :
    (k0_pay1 x0 x1 x2 x3 x4 (ix2 p q) : EReal)
      = ∑ h : Fin 256, max ((∑ f : Fin 512, (∑ j : Fin 8192, (x0 (ix2 p j) : EReal) * (x1 (ix2 j f) : EReal)) * (x2 (ix2 f h) : EReal))
          + (x3 (ix2 0 h) : EReal)) 0 * (x4 (ix2 h q) : EReal) := by
  unfold k0_pay1
  refine (truncf_apply (ψ := .bf16) _ bitsLt_bf16_f32 _).trans ?_
  refine (PlainMatmul.apply (d := dot_S256x256_S256x128_S256x128_1_0_0_1_n_n) ⟨rfl, rfl, rfl, rfl, rfl, rfl⟩ none _ _ p q).trans ?_
  refine Finset.sum_congr rfl fun h _ => ?_
  refine congrArg₂ (· * ·) ?_ ?_
  · refine (truncf_apply (ψ := .bf16) _ bitsLt_bf16_f32 _).trans ?_
    refine (maximumf_apply _ _ _).trans ?_
    refine congrArg₂ max ?_ Ideal.ofBits_zero_f32
    refine (addf_apply _ _ _).trans ?_
    refine congrArg₂ (· + ·) ?_ ?_
    · refine (PlainMatmul.apply (d := dot_S256x512_S512x256_S256x256_1_0_0_1_n_n) ⟨rfl, rfl, rfl, rfl, rfl, rfl⟩ none _ _ p h).trans ?_
      refine Finset.sum_congr rfl fun f _ => ?_
      refine congrArg₂ (· * ·) ?_ ?_
      · refine (truncf_apply (ψ := .bf16) _ bitsLt_bf16_f32 _).trans ?_
        refine (PlainMatmul.apply (d := dot_S256x8192_S8192x512_S256x512_1_0_0_1_n_n) ⟨rfl, rfl, rfl, rfl, rfl, rfl⟩ none _ _ p f).trans ?_
        refine Finset.sum_congr rfl fun j _ => ?_
        rw [shapeCast_self, shapeCast_self]
      · rw [shapeCast_self]
    · refine (broadcastTo_apply _ _ (ix2 p h) (ix2 (0 : Fin 1) h) (fun a => ?_)).trans ?_
      · match a with
        | ⟨0, _⟩ => rfl
        | ⟨1, _⟩ => rfl
      · rw [shapeCast_self]
  · rw [shapeCast_self]

/-- One entry of one block: if the loaded block of `A` is rows `o …` of the array `A`, the other loaded blocks are
    the whole arrays `X`, `W1`, `b1`, `W2`, and the entry `y` of the block sits at `i` in the output array (row
    `o + y 0`), the stored value is `(relu ((A · X) · W1 + b1) · W2) i`. -/
theorem point0 (x0 : Vec Ideal S256x8192 .bf16) (x1 : Vec Ideal S8192x512 .bf16) (x2 : Vec Ideal S512x256 .bf16)
    (x3 : Vec Ideal S1x256 .f32) (x4 : Vec Ideal S256x128 .bf16)
    (A : GCN.Mat 8192 8192) (X : GCN.Mat 8192 512) (W1 : GCN.Mat 512 256) (b1 : GCN.Mat 1 256) (W2 : GCN.Mat 256 128)
    (y : S256x128.Idx) (i : S8192x128.Idx) (o : ℕ)
    (h0 : ∀ (a : S256x8192.Idx) (a' : S8192x8192.Idx), (a' 0).val = o + (a 0).val → (a' 1).val = (a 1).val → (x0 a : EReal) = A a')
    (h1 : ∀ (a : S8192x512.Idx) (a' : S8192x512.Idx), (a' 0).val = (a 0).val → (a' 1).val = (a 1).val → (x1 a : EReal) = X a')
    (h2 : ∀ (a : S512x256.Idx) (a' : S512x256.Idx), (a' 0).val = (a 0).val → (a' 1).val = (a 1).val → (x2 a : EReal) = W1 a')
    (h3 : ∀ (a : S1x256.Idx) (a' : S1x256.Idx), (a' 0).val = (a 0).val → (a' 1).val = (a 1).val → (x3 a : EReal) = b1 a')
    (h4 : ∀ (a : S256x128.Idx) (a' : S256x128.Idx), (a' 0).val = (a 0).val → (a' 1).val = (a 1).val → (x4 a : EReal) = W2 a')
    (hi0 : (i 0).val = o + (y 0).val) (hi1 : (i 1).val = (y 1).val) :
    (k0_pay1 x0 x1 x2 x3 x4 y : EReal) = GCN.mm (GCN.layer (GCN.mm A X) W1 b1) W2 i := by
  obtain ⟨p, q, rfl⟩ : ∃ (p : Fin 256) (q : Fin 128), y = ix2 p q := ⟨y 0, y 1, eq_ix2 y⟩
  obtain ⟨r, s, rfl⟩ : ∃ (r : Fin 8192) (s : Fin 128), i = ix2 r s := ⟨i 0, i 1, eq_ix2 i⟩
  rw [pay0_apply, GCN.mm_ix2]
  refine Finset.sum_congr rfl fun h _ => ?_
  rw [GCN.layer_ix2]
  refine congrArg₂ (· * ·) (congrArg₂ max (congrArg₂ (· + ·) (Finset.sum_congr rfl fun f _ => ?_) ?_) rfl) ?_
  · rw [GCN.mm_ix2]
    refine congrArg₂ (· * ·) (Finset.sum_congr rfl fun j _ => ?_) ?_
    · rw [h0 (ix2 p j) (ix2 r j) hi0 rfl, h1 (ix2 j f) (ix2 j f) rfl rfl]
    · exact h2 (ix2 f h) (ix2 f h) rfl rfl
  · exact h3 (ix2 0 h) (ix2 0 h) rfl rfl
  · exact h4 (ix2 h q) (ix2 h s) rfl hi1

/-- The printed index maps over the grid: the block of `A` and the output block move with the point along the
    rows; `X`, `W1`, `b1` and `W2` are each the one whole block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `relu ((A · X) · W1 + b1) · W2` of the arrays as the region finds them. -/
theorem flushed0 (c : Dev nD) (t : Fin cfg0.N) :
    (dat0 V c).flushed 5 t = ((cfg0.win 5).blk t).view.read (Elt Ideal)
      (GCN.mm (GCN.layer (GCN.mm (V c main_call0_v1) (V c main_call0_v3)) (V c main_call0_v5) (V c main_call0_v6)) (V c main_call0_v8)) := by
  show (cfg0.win 5).cut (grid0.coords t) ((dat0 V c).after 5 t) = _
  rw [after0_5]
  unfold out0_5
  rw [View.canon_unit_zero origin2]
  simp only [View.ld_unit_zero (S := S256x8192) origin2, View.ld_unit_zero (S := S8192x512) origin2,
    View.ld_unit_zero (S := S512x256) origin2, View.ld_unit_zero (S := S1x256) origin2,
    View.ld_unit_zero (S := S256x128) origin2]
  obtain ⟨e0, e1, e2, e3, e4, e5, e6, e7, e8, e9, e10, e11⟩ := idx0 t
  funext y
  refine point0 (iblk0 V c 0 t) (iblk0 V c 1 t) (iblk0 V c 2 t) (iblk0 V c 3 t) (iblk0 V c 4 t)
    (V c main_call0_v1) (V c main_call0_v3) (V c main_call0_v5) (V c main_call0_v6) (V c main_call0_v8)
    y _ (t.val * 256) ?_ ?_ ?_ ?_ ?_ ?_ ?_
  · intro a a' h0 h1
    show V c main_call0_v1 (((cfg0.win 0).blk t).view.emb a) = V c main_call0_v1 a'
    refine congrArg (V c main_call0_v1) (funext fun d => Fin.ext ?_)
    match d with
    | ⟨0, _⟩ => show win0_0.index t (0 : Fin 2) * 256 + 1 * (a 0).val = (a' 0).val; omega
    | ⟨1, _⟩ => show win0_0.index t (1 : Fin 2) * 8192 + 1 * (a 1).val = (a' 1).val; omega
  · intro a a' h0 h1
    show V c main_call0_v3 (((cfg0.win 1).blk t).view.emb a) = V c main_call0_v3 a'
    refine congrArg (V c main_call0_v3) (funext fun d => Fin.ext ?_)
    match d with
    | ⟨0, _⟩ => show win0_1.index t (0 : Fin 2) * 8192 + 1 * (a 0).val = (a' 0).val; omega
    | ⟨1, _⟩ => show win0_1.index t (1 : Fin 2) * 512 + 1 * (a 1).val = (a' 1).val; omega
  · intro a a' h0 h1
    show V c main_call0_v5 (((cfg0.win 2).blk t).view.emb a) = V c main_call0_v5 a'
    refine congrArg (V c main_call0_v5) (funext fun d => Fin.ext ?_)
    match d with
    | ⟨0, _⟩ => show win0_2.index t (0 : Fin 2) * 512 + 1 * (a 0).val = (a' 0).val; omega
    | ⟨1, _⟩ => show win0_2.index t (1 : Fin 2) * 256 + 1 * (a 1).val = (a' 1).val; omega
  · intro a a' h0 h1
    show V c main_call0_v6 (((cfg0.win 3).blk t).view.emb a) = V c main_call0_v6 a'
    refine congrArg (V c main_call0_v6) (funext fun d => Fin.ext ?_)
    match d with
    | ⟨0, _⟩ => show win0_3.index t (0 : Fin 2) * 1 + 1 * (a 0).val = (a' 0).val; omega
    | ⟨1, _⟩ => show win0_3.index t (1 : Fin 2) * 256 + 1 * (a 1).val = (a' 1).val; omega
  · intro a a' h0 h1
    show V c main_call0_v8 (((cfg0.win 4).blk t).view.emb a) = V c main_call0_v8 a'
    refine congrArg (V c main_call0_v8) (funext fun d => Fin.ext ?_)
    match d with
    | ⟨0, _⟩ => show win0_4.index t (0 : Fin 2) * 256 + 1 * (a 0).val = (a' 0).val; omega
    | ⟨1, _⟩ => show win0_4.index t (1 : Fin 2) * 128 + 1 * (a 1).val = (a' 1).val; omega
  · show win0_5.index t (0 : Fin 2) * 256 + 1 * (y 0).val = t.val * 256 + (y 0).val; omega
  · show win0_5.index t (1 : Fin 2) * 128 + 1 * (y 1).val = (y 1).val; omega

/-- An index of the array is in point `t`'s block iff each coordinate is in the block's range on its axis. -/
theorem mem_blk0 (t : Fin cfg0.N) (i : S8192x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_call0_v10).slice (win0_5.rect t)).set ↔ _
  rw [View.set_slice_whole, Rect.mem_set_unit]
  exact Iff.rfl

/-- The 32 blocks of 256 rows tile the array: row `r` is in the block of point `r / 256`. -/
theorem cover0 (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  have hN : cfg0.N = 32 := N_0
  have ht : (i 0).val / 256 < cfg0.N := by rw [hN]; omega
  obtain ⟨e0, e1, e2, e3, e4, e5, e6, e7, e8, e9, e10, e11⟩ := idx0 ⟨(i 0).val / 256, ht⟩
  have e10' : win0_5.index ⟨(i 0).val / 256, ht⟩ (0 : Fin 2) = (i 0).val / 256 := e10
  refine ⟨⟨(i 0).val / 256, ht⟩, flush0_5 _, ?_⟩
  rw [mem_blk0]
  intro a
  match a with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    omega
  | ⟨1, _⟩ =>
    show win0_5.index ⟨(i 0).val / 256, ht⟩ (1 : Fin 2) * 128 ≤ (i 1).val ∧ (i 1).val < win0_5.index ⟨(i 0).val / 256, ht⟩ (1 : Fin 2) * 128 + 128
    omega

/-- The output array of the first region ends holding `relu ((A · X) · W1 + b1) · W2` of the arrays the region found. -/
theorem final0 (c : Dev nD) :
    (dat0 V c).arrAt 5 cfg0.N
      = GCN.mm (GCN.layer (GCN.mm (V c main_call0_v1) (V c main_call0_v3)) (V c main_call0_v5) (V c main_call0_v6)) (V c main_call0_v8) :=
  (dat0 V c).arrAt_eq_of_cover 5 _ (fun t _ => flushed0 V c t) cover0

end Cert.ReferenceIdeal.Val

end
-- ==== Proof.RefRegion1.lean ====
/-
  The second region of the reference: `OUT = relu (A · H + b2)`, one block of 256 rows per grid point, where `H`
  is the array the first region left.

  At grid point `t` the body multiplies rows `256 t … 256 t + 255` of `A` by the whole of `H`, adds the bias
  row to every row, clips below at zero, and writes the result to the same rows of the output array. Each entry of
  a block is therefore the entry of the whole layer at the block's place in the array, the 32 blocks tile the 8192
  rows, and the array ends holding the layer — whatever the region found in its input arrays.
-/
import proofs.«149407_g2000502456341497_pallasbulk_61_2_alg».proof.Proof.Gen.ReferenceIdeal.Frame
import proofs.«149407_g2000502456341497_pallasbulk_61_2_alg».proof.Proof.LibMatmul
import proofs.«149407_g2000502456341497_pallasbulk_61_2_alg».proof.Proof.Spec
import Idealize.ShloMosaic.Lib.Pipeline.Value
import Idealize.ShloMosaic.Lib.ValueIdx

set_option maxRecDepth 16384

noncomputable section

namespace Cert.ReferenceIdeal.Val

open Idealize.ShloMosaic Idealize.ShloMosaic.TcCoe Idealize.SL.Sem Idealize.ShloMosaic.ValueIdx
open Idealize.ShloMosaic.Pipeline (Dat)
open Cert.ReferenceIdeal Cert.ReferenceIdeal.Gen

variable (V : (c : Dev nD) → (b : Ref sig .tc) → Buf (Elt Ideal) ((c : Thread nD τ).loc b))

private theorem origin2 : (![0, 0] : Fin 2 → Nat) = fun _ => 0 := funext fun a => by fin_cases a <;> rfl

/-- The body's stored value at an entry: the sum over the 8192 columns of row `p` of the loaded block of `A`
    against column `q` of `H`, plus the bias at column `q`, clipped below at zero. -/
theorem pay1_apply (x0 : Vec Ideal S256x8192 .bf16) (x1 : Vec Ideal S8192x128 .bf16) (x2 : Vec Ideal S1x128 .f32)
    (p : Fin 256) (q : Fin 128) :
    (k1_pay1 x0 x1 x2 (ix2 p q) : EReal)
      = max ((∑ k : Fin 8192, (x0 (ix2 p k) : EReal) * (x1 (ix2 k q) : EReal)) + (x2 (ix2 0 q) : EReal)) 0 := by
  unfold k1_pay1
  refine (maximumf_apply _ _ _).trans ?_
  refine congrArg₂ max ?_ Ideal.ofBits_zero_f32
  refine (addf_apply _ _ _).trans ?_
  refine congrArg₂ (· + ·) ?_ ?_
  · refine (PlainMatmul.apply (d := dot_S256x8192_S8192x128_S256x128_1_0_0_1_n_n) ⟨rfl, rfl, rfl, rfl, rfl, rfl⟩ none _ _ p q).trans ?_
    refine Finset.sum_congr rfl fun k _ => ?_
    rw [shapeCast_self, shapeCast_self]
  · refine (broadcastTo_apply _ _ (ix2 p q) (ix2 (0 : Fin 1) q) (fun a => ?_)).trans ?_
    · match a with
      | ⟨0, _⟩ => rfl
      | ⟨1, _⟩ => rfl
    · rw [shapeCast_self]

/-- One entry of one block: if the loaded block of `A` is rows `o …` of the array `A`, the loaded `H` and bias
    are the arrays `H` and `b`, and the entry `y` of the block sits at `i` in the output array (row `o + y 0`),
    the stored value is the layer `relu (A · H + b)` at `i`. -/
theorem point1 (x0 : Vec Ideal S256x8192 .bf16) (x1 : Vec Ideal S8192x128 .bf16) (x2 : Vec Ideal S1x128 .f32)
    (A : GCN.Mat 8192 8192) (H : GCN.Mat 8192 128) (b : GCN.Mat 1 128)
    (y : S256x128.Idx) (i : S8192x128.Idx) (o : ℕ)
    (h0 : ∀ (a : S256x8192.Idx) (a' : S8192x8192.Idx), (a' 0).val = o + (a 0).val → (a' 1).val = (a 1).val → (x0 a : EReal) = A a')
    (h1 : ∀ (a : S8192x128.Idx) (a' : S8192x128.Idx), (a' 0).val = (a 0).val → (a' 1).val = (a 1).val → (x1 a : EReal) = H a')
    (h2 : ∀ (a : S1x128.Idx) (a' : S1x128.Idx), (a' 0).val = (a 0).val → (a' 1).val = (a 1).val → (x2 a : EReal) = b a')
    (hi0 : (i 0).val = o + (y 0).val) (hi1 : (i 1).val = (y 1).val) :
    (k1_pay1 x0 x1 x2 y : EReal) = GCN.layer A H b i := by
  obtain ⟨p, q, rfl⟩ : ∃ (p : Fin 256) (q : Fin 128), y = ix2 p q := ⟨y 0, y 1, eq_ix2 y⟩
  obtain ⟨r, s, rfl⟩ : ∃ (r : Fin 8192) (s : Fin 128), i = ix2 r s := ⟨i 0, i 1, eq_ix2 i⟩
  rw [pay1_apply, GCN.layer_ix2]
  refine congrArg₂ max (congrArg₂ (· + ·) (Finset.sum_congr rfl fun k _ => ?_) ?_) rfl
  · rw [h0 (ix2 p k) (ix2 r k) hi0 rfl, h1 (ix2 k q) (ix2 k s) rfl hi1]
  · exact h2 (ix2 0 q) (ix2 0 s) rfl hi1

/-- The printed index maps over the grid: the block of `A` and the output block move with the point along the
    rows; `H` and the bias are each the one whole block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the layer `relu (A · H + b2)` of the arrays as the region finds them. -/
theorem flushed1 (c : Dev nD) (t : Fin cfg1.N) :
    (dat1 V c).flushed 3 t = ((cfg1.win 3).blk t).view.read (Elt Ideal)
      (GCN.layer (V c main_call0_v1) (V c main_call0_v10) (V c main_call0_v9)) := by
  show (cfg1.win 3).cut (grid1.coords t) ((dat1 V c).after 3 t) = _
  rw [after1_3]
  unfold out1_3
  rw [View.canon_unit_zero origin2]
  simp only [View.ld_unit_zero (S := S256x8192) origin2, View.ld_unit_zero (S := S8192x128) origin2,
    View.ld_unit_zero (S := S1x128) origin2]
  obtain ⟨e0, e1, e2, e3, e4, e5, e6, e7⟩ := idx1 t
  funext y
  refine point1 (iblk1 V c 0 t) (iblk1 V c 1 t) (iblk1 V c 2 t) (V c main_call0_v1) (V c main_call0_v10) (V c main_call0_v9)
    y _ (t.val * 256) ?_ ?_ ?_ ?_ ?_
  · intro a a' h0 h1
    show V c main_call0_v1 (((cfg1.win 0).blk t).view.emb a) = V c main_call0_v1 a'
    refine congrArg (V c main_call0_v1) (funext fun d => Fin.ext ?_)
    match d with
    | ⟨0, _⟩ => show win1_0.index t (0 : Fin 2) * 256 + 1 * (a 0).val = (a' 0).val; omega
    | ⟨1, _⟩ => show win1_0.index t (1 : Fin 2) * 8192 + 1 * (a 1).val = (a' 1).val; omega
  · intro a a' h0 h1
    show V c main_call0_v10 (((cfg1.win 1).blk t).view.emb a) = V c main_call0_v10 a'
    refine congrArg (V c main_call0_v10) (funext fun d => Fin.ext ?_)
    match d with
    | ⟨0, _⟩ => show win1_1.index t (0 : Fin 2) * 8192 + 1 * (a 0).val = (a' 0).val; omega
    | ⟨1, _⟩ => show win1_1.index t (1 : Fin 2) * 128 + 1 * (a 1).val = (a' 1).val; omega
  · intro a a' h0 h1
    show V c main_call0_v9 (((cfg1.win 2).blk t).view.emb a) = V c main_call0_v9 a'
    refine congrArg (V c main_call0_v9) (funext fun d => Fin.ext ?_)
    match d with
    | ⟨0, _⟩ => show win1_2.index t (0 : Fin 2) * 1 + 1 * (a 0).val = (a' 0).val; omega
    | ⟨1, _⟩ => show win1_2.index t (1 : Fin 2) * 128 + 1 * (a 1).val = (a' 1).val; omega
  · show win1_3.index t (0 : Fin 2) * 256 + 1 * (y 0).val = t.val * 256 + (y 0).val; omega
  · show win1_3.index t (1 : Fin 2) * 128 + 1 * (y 1).val = (y 1).val; omega

/-- An index of the array is in point `t`'s block iff each coordinate is in the block's range on its axis. -/
theorem mem_blk1 (t : Fin cfg1.N) (i : S8192x128.Idx) :
    i ∈ ((cfg1.win 3).blk t).view.set ↔ ∀ a : Fin 2, win1_3.index t a * S256x128.size a ≤ (i a).val ∧ (i a).val < win1_3.index t a * S256x128.size a + S256x128.size a := by
  show i ∈ ((View.whole main_v0).slice (win1_3.rect t)).set ↔ _
  rw [View.set_slice_whole, Rect.mem_set_unit]
  exact Iff.rfl

/-- The 32 blocks of 256 rows tile the array: row `r` is in the block of point `r / 256`. -/
theorem cover1 (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  have hN : cfg1.N = 32 := N_1
  have ht : (i 0).val / 256 < cfg1.N := by rw [hN]; omega
  obtain ⟨e0, e1, e2, e3, e4, e5, e6, e7⟩ := idx1 ⟨(i 0).val / 256, ht⟩
  have e6' : win1_3.index ⟨(i 0).val / 256, ht⟩ (0 : Fin 2) = (i 0).val / 256 := e6
  refine ⟨⟨(i 0).val / 256, ht⟩, flush1_3 _, ?_⟩
  rw [mem_blk1]
  intro a
  match a with
  | ⟨0, _⟩ =>
    show win1_3.index ⟨(i 0).val / 256, ht⟩ (0 : Fin 2) * 256 ≤ (i 0).val ∧ (i 0).val < win1_3.index ⟨(i 0).val / 256, ht⟩ (0 : Fin 2) * 256 + 256
    omega
  | ⟨1, _⟩ =>
    show win1_3.index ⟨(i 0).val / 256, ht⟩ (1 : Fin 2) * 128 ≤ (i 1).val ∧ (i 1).val < win1_3.index ⟨(i 0).val / 256, ht⟩ (1 : Fin 2) * 128 + 128
    omega

/-- The output array of the second region ends holding `relu (A · H + b2)` of the arrays the region found. -/
theorem final1 (c : Dev nD) :
    (dat1 V c).arrAt 3 cfg1.N = GCN.layer (V c main_call0_v1) (V c main_call0_v10) (V c main_call0_v9) :=
  (dat1 V c).arrAt_eq_of_cover 3 _ (fun t _ => flushed1 V c t) cover1

end Cert.ReferenceIdeal.Val

end
-- ==== Proof.RefValue.lean ====
/-
  The reference's run, read: the result array ends holding

      relu (A · (relu ((A · X) · W1 + b1) · W2) + b2)

  of the six argument arrays as launched, and the arguments end as launched.

  The run leaves the result array at what the second region's write-backs leave. The second region computes one
  layer, `relu (A' · H + b')`, of the three arrays it finds: `A'` is an input array of the first region, which no
  region writes, so it still holds what the host operations put there — `A`; `b'` is written by the host operations
  only — `b2`; and `H` is the first region's output, `relu ((A · X) · W1 + b1) · W2` of the arrays the first region
  found, which are the arguments themselves (the host operations before it change formats and pad by nothing).
-/
import proofs.«149407_g2000502456341497_pallasbulk_61_2_alg».proof.Proof.Gen.ReferenceIdeal.Frame
import proofs.«149407_g2000502456341497_pallasbulk_61_2_alg».proof.Proof.Spec
import proofs.«149407_g2000502456341497_pallasbulk_61_2_alg».proof.Proof.RefRun
import proofs.«149407_g2000502456341497_pallasbulk_61_2_alg».proof.Proof.RefHost
import proofs.«149407_g2000502456341497_pallasbulk_61_2_alg».proof.Proof.RefRegion0
import proofs.«149407_g2000502456341497_pallasbulk_61_2_alg».proof.Proof.RefRegion1

set_option maxRecDepth 16384

noncomputable section

namespace Cert.ReferenceIdeal.Val

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

/-- The second region finds `A` in `main_call0_v1`: the first region only reads that array. -/
theorem V2_v1 (c : Dev nD) :
    (Gen.V2 m ρ c main_call0_v1 : S8192x8192.Idx → EReal) = (m ((c : Thread nD τ).loc main_arg0) : S8192x8192.Idx → EReal) :=
  ((Gen.W2_arr m ρ c 0).trans (((dat0 (Gen.V1 m ρ) c).arrAt_in 0 rfl _).trans (A_eq0 (Gen.V1 m ρ) c 0))).trans (V1_v1 m ρ c)

/-- The second region finds `b2` in `main_call0_v9`: the first region does not touch that array. -/
theorem V2_v9 (c : Dev nD) :
    (Gen.V2 m ρ c main_call0_v9 : S1x128.Idx → EReal) = (m ((c : Thread nD τ).loc main_arg5) : S1x128.Idx → EReal) :=
  (Gen.W2_of_ne m ρ c main_call0_v9 (by decide)).trans (V1_v9 m ρ c)

/-- The second region finds the first region's result in `main_call0_v10`: `relu ((A · X) · W1 + b1) · W2` of the
    arguments. -/
theorem V2_v10 (c : Dev nD) :
    (Gen.V2 m ρ c main_call0_v10 : S8192x128.Idx → EReal)
      = GCN.hiddenR (m ((c : Thread nD τ).loc main_arg0)) (m ((c : Thread nD τ).loc main_arg1)) (m ((c : Thread nD τ).loc main_arg2)) (m ((c : Thread nD τ).loc main_arg3)) (m ((c : Thread nD τ).loc main_arg4)) := by
  refine ((Gen.W2_arr m ρ c 5).trans (final0 (Gen.V1 m ρ) c)).trans ?_
  rw [V1_v1, V1_v3, V1_v5, V1_v6, V1_v8]
  rfl

/-- The result array at the last boundary is the reference's arrangement of the two layers, of the arguments. -/
theorem W3_v0 (c : Dev nD) :
    (Gen.W3 m ρ c (Proc.devRef .tc main_v0) : S8192x128.Idx → EReal)
      = GCN.outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((Gen.W3_arr m ρ c 3).trans (final1 (Gen.V2 m ρ) c)).trans ?_
  rw [V2_v1, V2_v10, V2_v9]
  rfl

/-- THE RUN, READ: every weakly fair execution of the reference's @main from `m` terminates without fault with the
    result array at `relu (A · (relu ((A · X) · W1 + b1) · W2) + b2)` of the launch contents of the six arguments,
    and the arguments as launched. -/
theorem run : θ_run defs (onTc (τ := τ) (main (F := Ideal))) ⟨m, fun _ => 0, ρ⟩ (fun r => ∀ c : Dev nD,
      (r.2.mem ((c.tc : Thread nD τ).loc main_v0) : S8192x128.Idx → EReal)
        = GCN.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W3_v0 m ρ c), (h c).2⟩) (run_W3 m ρ)

end Cert.ReferenceIdeal.Val

end
-- ==== Proof.lean ====
/-
  A two-layer graph convolution, `out = relu (A · (relu (A · X · W1 + b1) · W2) + b2)`, in two arrangements.

  The kernel runs three tiled products in a row — `P = X · W1` in blocks of 1024 rows, then
  `Q = relu (A · P + b1) · W2` and `out = relu (A · Q + b2)` in blocks of 256 rows of the adjacency — and the
  reference two: `relu ((A · X) · W1 + b1) · W2`, then the same output layer. Over the extended reals every change
  of float format is the identity and a tiled product is the whole product read block by block, so each program's
  result is one closed expression of the six argument arrays (`GCN.outK` and `GCN.outR`), and the two expressions
  differ only in the bracketing of `A · X · W1`. That product is associative when the three matrices have real
  entries, which the precondition — every input finite — provides; nothing else of the precondition is used.

  The three frame claims are the generated frames; no operation was rewritten by the idealization, so that claim
  is trivial; the value claim is assembled below from the two runs and the associativity law.
-/
import proofs.«149407_g2000502456341497_pallasbulk_61_2_alg».proof.Defs
import proofs.«149407_g2000502456341497_pallasbulk_61_2_alg».proof.Proof.Gen.Kernel
import proofs.«149407_g2000502456341497_pallasbulk_61_2_alg».proof.Proof.Gen.Kernel.Frame
import proofs.«149407_g2000502456341497_pallasbulk_61_2_alg».proof.Proof.Gen.KernelIdeal
import proofs.«149407_g2000502456341497_pallasbulk_61_2_alg».proof.Proof.Gen.KernelIdeal.Frame
import proofs.«149407_g2000502456341497_pallasbulk_61_2_alg».proof.Proof.Gen.ReferenceIdeal
import proofs.«149407_g2000502456341497_pallasbulk_61_2_alg».proof.Proof.Gen.ReferenceIdeal.Frame
import proofs.«149407_g2000502456341497_pallasbulk_61_2_alg».proof.Proof.Gen.Pre_finite_inputs
import proofs.«149407_g2000502456341497_pallasbulk_61_2_alg».proof.Proof.Spec
import proofs.«149407_g2000502456341497_pallasbulk_61_2_alg».proof.Proof.Finite
import proofs.«149407_g2000502456341497_pallasbulk_61_2_alg».proof.Proof.KValue
import proofs.«149407_g2000502456341497_pallasbulk_61_2_alg».proof.Proof.RefValue
import Idealize.ShloMosaic.Adequacy
import Idealize.ShloMosaic.Init

noncomputable section

namespace Cert.Proof

open Idealize.ShloMosaic Idealize.SL.Sem

/-- The two idealized programs, run from memories that agree on the arguments, end with the same result: the
    kernel's run ends at `GCN.outK` of the arguments, the reference's at `GCN.outR` of the same arguments, and the
    two are equal because the adjacency, the features and the first weights have real entries. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun r h c => ⟨(h c).1.trans ?_, (h c).2⟩)
    (Cert.ReferenceIdeal.Val.run m' ρ')
  rw [(hagree c).1, (hagree c).2.1, (hagree c).2.2.1, (hagree c).2.2.2.1, (hagree c).2.2.2.2.1, (hagree c).2.2.2.2.2]
  obtain ⟨hA, hX, hW⟩ := Cert.Finite.real_inputs _ _ _ _ _ _ (hpre c)
  exact (GCN.outK_eq_outR _ _ _ _ _ _ hA hX hW).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
